-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_0)) (v2 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_0) = v1 c
          ∧ r.2.mem ((c.tc : Thread Cert.KernelIdeal.nD Cert.KernelIdeal.τ).loc Cert.KernelIdeal.main_v18_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x4096, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x4096, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S4096, .f32⟩
  | .hbm, ⟨34, _⟩ => ⟨S1x4096, .f32⟩
  | .hbm, ⟨35, _⟩ => ⟨S1024x4096, .bf16⟩
  | .hbm, ⟨36, _⟩ => ⟨S1024x4096, .bf16⟩
  | .hbm, ⟨37, _⟩ => ⟨S4096x1024, .f32⟩
  | .hbm, ⟨38, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  shapeCasts_S4096_S1x4096 : S4096.ShapeCasts S1x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S1024x4096, .f32⟩
  | .hbm, ⟨27, _⟩ => ⟨S4096x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.FrameKernel.lean ====
/-
  The frame of the LSTM-cell program: it runs to the end, faults nowhere, and leaves its nineteen argument arrays as
  they were.

  The program first rearranges the weights on the host — each gate's matrix transposed, the four joined along the
  columns, rounded to the narrow format; the four bias sums joined into one row — and then runs one kernel over
  sixteen tiles of 256 batch rows. At a tile the kernel reads its three batch blocks, the two joined weight matrices
  and the bias row whole, and overwrites the tile's block of the two results whole; it keeps nothing between tiles.
  So: the host operations write only their own result buffers (never an argument); the body, handed each input
  window's block, leaves the inputs in place and each output buffer at one function of the input blocks; and the
  pipeline's launch theorem turns that into a run of the whole program in which every argument array ends at the
  contents it was launched with. What the two result arrays end holding is read off the same run elsewhere.
-/
import proofs.«167211_j77988016160946_2_alg».proof.Proof.Gen.Kernel.Launch
import proofs.«167211_j77988016160946_2_alg».proof.Proof.Gen.Kernel.Skeleton
import proofs.«167211_j77988016160946_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- What core `c`'s buffers hold when the kernel is launched: the launch contents after the eighteen host operations. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is the host operations followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by no host operation (each writes its own result buffer only), so the kernel finds
    it as launched. -/
local macro "kept_by_prefix" : tactic => `(tactic|
  exact StableHlo.after_of_forall_not_mem _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide))))

theorem V_main_arg0 (c : Dev nD) : V m c main_arg0 = m ((c : Thread nD τ).loc main_arg0) := by kept_by_prefix
theorem V_main_arg1 (c : Dev nD) : V m c main_arg1 = m ((c : Thread nD τ).loc main_arg1) := by kept_by_prefix
theorem V_main_arg2 (c : Dev nD) : V m c main_arg2 = m ((c : Thread nD τ).loc main_arg2) := by kept_by_prefix
theorem V_main_arg3 (c : Dev nD) : V m c main_arg3 = m ((c : Thread nD τ).loc main_arg3) := by kept_by_prefix
theorem V_main_arg4 (c : Dev nD) : V m c main_arg4 = m ((c : Thread nD τ).loc main_arg4) := by kept_by_prefix
theorem V_main_arg5 (c : Dev nD) : V m c main_arg5 = m ((c : Thread nD τ).loc main_arg5) := by kept_by_prefix
theorem V_main_arg6 (c : Dev nD) : V m c main_arg6 = m ((c : Thread nD τ).loc main_arg6) := by kept_by_prefix
theorem V_main_arg7 (c : Dev nD) : V m c main_arg7 = m ((c : Thread nD τ).loc main_arg7) := by kept_by_prefix
theorem V_main_arg8 (c : Dev nD) : V m c main_arg8 = m ((c : Thread nD τ).loc main_arg8) := by kept_by_prefix
theorem V_main_arg9 (c : Dev nD) : V m c main_arg9 = m ((c : Thread nD τ).loc main_arg9) := by kept_by_prefix
theorem V_main_arg10 (c : Dev nD) : V m c main_arg10 = m ((c : Thread nD τ).loc main_arg10) := by kept_by_prefix
theorem V_main_arg11 (c : Dev nD) : V m c main_arg11 = m ((c : Thread nD τ).loc main_arg11) := by kept_by_prefix
theorem V_main_arg12 (c : Dev nD) : V m c main_arg12 = m ((c : Thread nD τ).loc main_arg12) := by kept_by_prefix
theorem V_main_arg13 (c : Dev nD) : V m c main_arg13 = m ((c : Thread nD τ).loc main_arg13) := by kept_by_prefix
theorem V_main_arg14 (c : Dev nD) : V m c main_arg14 = m ((c : Thread nD τ).loc main_arg14) := by kept_by_prefix
theorem V_main_arg15 (c : Dev nD) : V m c main_arg15 = m ((c : Thread nD τ).loc main_arg15) := by kept_by_prefix
theorem V_main_arg16 (c : Dev nD) : V m c main_arg16 = m ((c : Thread nD τ).loc main_arg16) := by kept_by_prefix
theorem V_main_arg17 (c : Dev nD) : V m c main_arg17 = m ((c : Thread nD τ).loc main_arg17) := by kept_by_prefix
theorem V_main_arg18 (c : Dev nD) : V m c main_arg18 = m ((c : Thread nD τ).loc main_arg18) := by kept_by_prefix

/-! ## The windows' blocks -/

/-- Window `w`'s block at tile `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every tile, whether it was fetched there or
    kept from the tile before (the three whole-array windows are fetched once: their block never moves). -/
theorem holds_block_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem holds_block_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem holds_block_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem holds_block_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem holds_block_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem holds_block_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from the launch theorem's run -/

/-- The three batch arrays are input windows' arrays, never written back; the sixteen weight and bias arrays are
    staged by no window, and end as the kernel found them; each is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body -/

/-- The whole of a batch block, of a joined weight matrix, of the bias row. -/
abbrev rTile : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- What the body leaves in the new-hidden-state buffer: one store of the whole tile. -/
def hidOut (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x2 rTile) (View.ld x3 rWeights) (View.ld x4 rWeights) (View.ld x5 rBias)⟩]

/-- What it leaves in the new-cell-state buffer: one store of the whole tile. -/
def cellOut (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x2 rTile) (View.ld x3 rWeights) (View.ld x4 rWeights) (View.ld x5 rBias)⟩]

/-- One store of the whole tile covers the tile. -/
theorem tile_covered (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

set_option maxHeartbeats 1000000 in
/-- The body, handed whole staging buffers — the six inputs' at known contents, the two outputs' at anything —,
    runs to its end leaving the inputs as they were and the outputs at `hidOut` / `cellOut` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

/-! ## The pipeline's proof data -/

/-- On core `c`: the arrays as the kernel finds them; after the body at tile `t` each input buffer at its block and
    the two output buffers at the body's two results of the input blocks; the invariant the untouched rest of the
    core (its other scoped buffers, its generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hidOut (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cellOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  holds_block_0 m (dats m 0 c) (A_eq m c 0) (after_0 m c) t d
theorem before_1 (c : Dev nD) (t : Fin cfg0.N) (d) : (dats m 0 c).before 1 t d = iblk m c 1 t :=
  holds_block_1 m (dats m 0 c) (A_eq m c 1) (after_1 m c) t d
theorem before_2 (c : Dev nD) (t : Fin cfg0.N) (d) : (dats m 0 c).before 2 t d = iblk m c 2 t :=
  holds_block_2 m (dats m 0 c) (A_eq m c 2) (after_2 m c) t d
theorem before_3 (c : Dev nD) (t : Fin cfg0.N) (d) : (dats m 0 c).before 3 t d = iblk m c 3 t :=
  holds_block_3 m (dats m 0 c) (A_eq m c 3) (after_3 m c) t d
theorem before_4 (c : Dev nD) (t : Fin cfg0.N) (d) : (dats m 0 c).before 4 t d = iblk m c 4 t :=
  holds_block_4 m (dats m 0 c) (A_eq m c 4) (after_4 m c) t d
theorem before_5 (c : Dev nD) (t : Fin cfg0.N) (d) : (dats m 0 c).before 5 t d = iblk m c 5 t :=
  holds_block_5 m (dats m 0 c) (A_eq m c 5) (after_5 m c) t d

/-! ## The body obligation -/

/-- What the body is called with at tile `t`, the eight windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any tile the inputs' buffers hold their blocks, so the body's triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what the launch theorem computes from the proof data and every other unscoped buffer what the kernel found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.FrameKernelIdeal.lean ====
/-
  The frame of the LSTM-cell program: it runs to the end, faults nowhere, and leaves its nineteen argument arrays as
  they were.

  The program first rearranges the weights on the host — each gate's matrix transposed, the four joined along the
  columns, rounded to the narrow format; the four bias sums joined into one row — and then runs one kernel over
  sixteen tiles of 256 batch rows. At a tile the kernel reads its three batch blocks, the two joined weight matrices
  and the bias row whole, and overwrites the tile's block of the two results whole; it keeps nothing between tiles.
  So: the host operations write only their own result buffers (never an argument); the body, handed each input
  window's block, leaves the inputs in place and each output buffer at one function of the input blocks; and the
  pipeline's launch theorem turns that into a run of the whole program in which every argument array ends at the
  contents it was launched with. What the two result arrays end holding is read off the same run elsewhere.
-/
import proofs.«167211_j77988016160946_2_alg».proof.Proof.Gen.KernelIdeal.Launch
import proofs.«167211_j77988016160946_2_alg».proof.Proof.Gen.KernelIdeal.Skeleton
import proofs.«167211_j77988016160946_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the kernel -/

/-- What core `c`'s buffers hold when the kernel is launched: the launch contents after the eighteen host operations. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is the host operations followed by the kernel's launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An argument array is written by no host operation (each writes its own result buffer only), so the kernel finds
    it as launched. -/
local macro "kept_by_prefix" : tactic => `(tactic|
  exact StableHlo.after_of_forall_not_mem _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide))))

theorem V_main_arg0 (c : Dev nD) : V m c main_arg0 = m ((c : Thread nD τ).loc main_arg0) := by kept_by_prefix
theorem V_main_arg1 (c : Dev nD) : V m c main_arg1 = m ((c : Thread nD τ).loc main_arg1) := by kept_by_prefix
theorem V_main_arg2 (c : Dev nD) : V m c main_arg2 = m ((c : Thread nD τ).loc main_arg2) := by kept_by_prefix
theorem V_main_arg3 (c : Dev nD) : V m c main_arg3 = m ((c : Thread nD τ).loc main_arg3) := by kept_by_prefix
theorem V_main_arg4 (c : Dev nD) : V m c main_arg4 = m ((c : Thread nD τ).loc main_arg4) := by kept_by_prefix
theorem V_main_arg5 (c : Dev nD) : V m c main_arg5 = m ((c : Thread nD τ).loc main_arg5) := by kept_by_prefix
theorem V_main_arg6 (c : Dev nD) : V m c main_arg6 = m ((c : Thread nD τ).loc main_arg6) := by kept_by_prefix
theorem V_main_arg7 (c : Dev nD) : V m c main_arg7 = m ((c : Thread nD τ).loc main_arg7) := by kept_by_prefix
theorem V_main_arg8 (c : Dev nD) : V m c main_arg8 = m ((c : Thread nD τ).loc main_arg8) := by kept_by_prefix
theorem V_main_arg9 (c : Dev nD) : V m c main_arg9 = m ((c : Thread nD τ).loc main_arg9) := by kept_by_prefix
theorem V_main_arg10 (c : Dev nD) : V m c main_arg10 = m ((c : Thread nD τ).loc main_arg10) := by kept_by_prefix
theorem V_main_arg11 (c : Dev nD) : V m c main_arg11 = m ((c : Thread nD τ).loc main_arg11) := by kept_by_prefix
theorem V_main_arg12 (c : Dev nD) : V m c main_arg12 = m ((c : Thread nD τ).loc main_arg12) := by kept_by_prefix
theorem V_main_arg13 (c : Dev nD) : V m c main_arg13 = m ((c : Thread nD τ).loc main_arg13) := by kept_by_prefix
theorem V_main_arg14 (c : Dev nD) : V m c main_arg14 = m ((c : Thread nD τ).loc main_arg14) := by kept_by_prefix
theorem V_main_arg15 (c : Dev nD) : V m c main_arg15 = m ((c : Thread nD τ).loc main_arg15) := by kept_by_prefix
theorem V_main_arg16 (c : Dev nD) : V m c main_arg16 = m ((c : Thread nD τ).loc main_arg16) := by kept_by_prefix
theorem V_main_arg17 (c : Dev nD) : V m c main_arg17 = m ((c : Thread nD τ).loc main_arg17) := by kept_by_prefix
theorem V_main_arg18 (c : Dev nD) : V m c main_arg18 = m ((c : Thread nD τ).loc main_arg18) := by kept_by_prefix

/-! ## The windows' blocks -/

/-- Window `w`'s block at tile `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every tile, whether it was fetched there or
    kept from the tile before (the three whole-array windows are fetched once: their block never moves). -/
theorem holds_block_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem holds_block_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem holds_block_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem holds_block_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem holds_block_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem holds_block_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from the launch theorem's run -/

/-- The three batch arrays are input windows' arrays, never written back; the sixteen weight and bias arrays are
    staged by no window, and end as the kernel found them; each is as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## The body -/

/-- The whole of a batch block, of a joined weight matrix, of the bias row. -/
abbrev rTile : Rect S256x1024 := Rect.unit (s := S256x1024) ![0, 0] S256x1024.size inb_S256x1024_S256x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- What the body leaves in the new-hidden-state buffer: one store of the whole tile. -/
def hidOut (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x2 rTile) (View.ld x3 rWeights) (View.ld x4 rWeights) (View.ld x5 rBias)⟩]

/-- What it leaves in the new-cell-state buffer: one store of the whole tile. -/
def cellOut (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x2 rTile) (View.ld x3 rWeights) (View.ld x4 rWeights) (View.ld x5 rBias)⟩]

/-- One store of the whole tile covers the tile. -/
theorem tile_covered (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

set_option maxHeartbeats 1000000 in
/-- The body, handed whole staging buffers — the six inputs' at known contents, the two outputs' at anything —,
    runs to its end leaving the inputs as they were and the outputs at `hidOut` / `cellOut` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hidOut x0 x1 x2 x3 x4 x5) ∗ owns (c : Thread nD τ) arg8 fullShare (cellOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

/-! ## The pipeline's proof data -/

/-- On core `c`: the arrays as the kernel finds them; after the body at tile `t` each input buffer at its block and
    the two output buffers at the body's two results of the input blocks; the invariant the untouched rest of the
    core (its other scoped buffers, its generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hidOut (iblk m c 0 t) (iblk m c 1 t) (iblk m c 2 t) (iblk m c 3 t) (iblk m c 4 t) (iblk m c 5 t)
    | ⟨7, _⟩ => cellOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = hidOut (iblk m c 0 t) (iblk m c 1 t) (iblk m c 2 t) (iblk m c 3 t) (iblk m c 4 t) (iblk m c 5 t) := by dsimp only [dats]
theorem after_7 (c : Dev nD) (t : Fin cfg0.N) : (dats m 0 c).after 7 t
    = cellOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  holds_block_0 m (dats m 0 c) (A_eq m c 0) (after_0 m c) t d
theorem before_1 (c : Dev nD) (t : Fin cfg0.N) (d) : (dats m 0 c).before 1 t d = iblk m c 1 t :=
  holds_block_1 m (dats m 0 c) (A_eq m c 1) (after_1 m c) t d
theorem before_2 (c : Dev nD) (t : Fin cfg0.N) (d) : (dats m 0 c).before 2 t d = iblk m c 2 t :=
  holds_block_2 m (dats m 0 c) (A_eq m c 2) (after_2 m c) t d
theorem before_3 (c : Dev nD) (t : Fin cfg0.N) (d) : (dats m 0 c).before 3 t d = iblk m c 3 t :=
  holds_block_3 m (dats m 0 c) (A_eq m c 3) (after_3 m c) t d
theorem before_4 (c : Dev nD) (t : Fin cfg0.N) (d) : (dats m 0 c).before 4 t d = iblk m c 4 t :=
  holds_block_4 m (dats m 0 c) (A_eq m c 4) (after_4 m c) t d
theorem before_5 (c : Dev nD) (t : Fin cfg0.N) (d) : (dats m 0 c).before 5 t d = iblk m c 5 t :=
  holds_block_5 m (dats m 0 c) (A_eq m c 5) (after_5 m c) t d

/-! ## The body obligation -/

/-- What the body is called with at tile `t`, the eight windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any tile the inputs' buffers hold their blocks, so the body's triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the pipeline holds
    what the launch theorem computes from the proof data and every other unscoped buffer what the kernel found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.LstmSpec.lean ====
/-
  One step of an LSTM cell over the extended reals, entry by entry.

  For a batch row `r` and a hidden unit `q`, gate `g` (input, forget, cell, output) has the pre-activation
  `x[r,·]·Wx_g[q,·] + h[r,·]·Wh_g[q,·] + (bx_g[q] + bh_g[q])`: two dot products over the 1024 input features and
  the 1024 hidden features, and the two biases added to each other first. The new cell state is
  `σ(f)·c[r,q] + σ(i)·tanh(g)` and the new hidden state `σ(o)·tanh(new cell)`, with `σ(z) = 1/(1 + e^(-z))`.
  Both programs of this certificate compute exactly these terms, in this order of operations, so no law of
  arithmetic beyond the definitions is needed to join them.
-/
import Idealize.ShloMosaic.PureOps.Ideal
import Idealize.ShloMosaic.Lib.ValueIdx

noncomputable section

namespace Cert.LstmSpec

open Idealize.ShloMosaic Idealize.ShloMosaic.ValueIdx

/-- An `a × b` matrix of extended reals. -/
abbrev Mat (a b : Nat) : Type := (⟨2, ![a, b]⟩ : Shape).Idx → EReal
/-- A vector of `a` extended reals. -/
abbrev Row (a : Nat) : Type := (⟨1, ![a]⟩ : Shape).Idx → EReal

/-- One gate's pre-activation at batch row `r` and hidden unit `q`: the input's and the hidden state's dot
    products with row `q` of the gate's two weight matrices, plus the sum of its two biases. -/
def pre (x h : Mat 4096 1024) (Wx Wh : Mat 1024 1024) (bx bh : Row 1024) (r : Fin 4096) (q : Fin 1024) : EReal :=
  ((∑ k : Fin 1024, x (ix2 r k) * Wx (ix2 q k)) + (∑ k : Fin 1024, h (ix2 r k) * Wh (ix2 q k))) + (bx (ix1 q) + bh (ix1 q))

/-- The new cell entry from the input, forget and cell gates' pre-activations and the old cell entry. -/
def cellOf (i f g c : EReal) : EReal := Ideal.logistic f * c + Ideal.logistic i * Ideal.tanh g

/-- The new hidden entry from the output gate's pre-activation and the new cell entry. -/
def hiddenOf (o cn : EReal) : EReal := Ideal.logistic o * Ideal.tanh cn

/-- The new cell state, as one function of the nineteen argument arrays. -/
def cellNew (x h c : Mat 4096 1024)
    (Wxi : Mat 1024 1024) (bxi : Row 1024) (Wxf : Mat 1024 1024) (bxf : Row 1024)
    (Wxg : Mat 1024 1024) (bxg : Row 1024) (Wxo : Mat 1024 1024) (bxo : Row 1024)
    (Whi : Mat 1024 1024) (bhi : Row 1024) (Whf : Mat 1024 1024) (bhf : Row 1024)
    (Whg : Mat 1024 1024) (bhg : Row 1024) (Who : Mat 1024 1024) (bho : Row 1024) : Mat 4096 1024 :=
  fun j => cellOf (pre x h Wxi Whi bxi bhi (j 0) (j 1)) (pre x h Wxf Whf bxf bhf (j 0) (j 1))
    (pre x h Wxg Whg bxg bhg (j 0) (j 1)) (c (ix2 (j 0) (j 1)))

/-- The new hidden state, as one function of the nineteen argument arrays. -/
def hiddenNew (x h c : Mat 4096 1024)
    (Wxi : Mat 1024 1024) (bxi : Row 1024) (Wxf : Mat 1024 1024) (bxf : Row 1024)
    (Wxg : Mat 1024 1024) (bxg : Row 1024) (Wxo : Mat 1024 1024) (bxo : Row 1024)
    (Whi : Mat 1024 1024) (bhi : Row 1024) (Whf : Mat 1024 1024) (bhf : Row 1024)
    (Whg : Mat 1024 1024) (bhg : Row 1024) (Who : Mat 1024 1024) (bho : Row 1024) : Mat 4096 1024 :=
  fun j => hiddenOf (pre x h Wxo Who bxo bho (j 0) (j 1))
    (cellNew x h c Wxi bxi Wxf bxf Wxg bxg Wxo bxo Whi bhi Whf bhf Whg bhg Who bho j)

end Cert.LstmSpec

end
-- ==== Proof.CellArrays.lean ====
/-
  The two result arrays the LSTM-cell program is proved to end with, as functions of the launch contents of its
  nineteen argument arrays: the new hidden state and the new cell state of `LstmSpec`.
-/
import proofs.«167211_j77988016160946_2_alg».proof.KernelIdeal
import proofs.«167211_j77988016160946_2_alg».proof.Proof.LstmSpec

noncomputable section

namespace Cert.KernelIdeal.CellValue

open Cert.KernelIdeal Idealize.ShloMosaic Idealize.ShloMosaic.TcCoe Idealize.SL.Sem

/-- The new hidden state on core `c`, from the argument arrays as launched. -/
def hidArr (m : (ℓ : Loc nD τ sig) → Buf (Elt Ideal) ℓ) (c : Dev nD) : S4096x1024.Idx → EReal :=
  Cert.LstmSpec.hiddenNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

/-- The new cell state on core `c`, from the argument arrays as launched. -/
def cellArr (m : (ℓ : Loc nD τ sig) → Buf (Elt Ideal) ℓ) (c : Dev nD) : S4096x1024.Idx → EReal :=
  Cert.LstmSpec.cellNew (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))

end Cert.KernelIdeal.CellValue

end
-- ==== Proof.LibJoinFour.lean ====
/-
  Four pieces of one shape set side by side, read at an index — and a sum over 2048 terms cut in two.

  A fused gate layer keeps its four gates' weights as ONE matrix of 4·1024 columns (and their biases as one row of
  4·1024 entries): column `1024·g + q` of the joined matrix is column `q` of gate `g`'s own matrix. This file states
  that for a join of four `n × 1024` matrices along the columns (any row count `n`), for a join of four vectors of
  1024 entries, and for a join of two `n × 1024` matrices along the columns; and that a sum over `Fin 2048` is the
  sum over its first 1024 indices plus the sum over its last 1024, in any commutative additive monoid.
-/
import Idealize.ShloMosaic.Lib.Pipeline.Value
import Idealize.ShloMosaic.Lib.ValueIdx

namespace Cert.JoinFour

open Idealize.ShloMosaic Idealize.ShloMosaic.ValueIdx

/-- Column (or entry) `q` of piece `g` in a join of four pieces of extent 1024: position `1024·g + q`. -/
def lane (g : Nat) (hg : g < 4) (q : Fin 1024) : Fin 4096 := ⟨1024 * g + q.val, by have := q.isLt; omega⟩

/-- Row `k` of the upper half of a matrix of 2048 rows, -/
def top (k : Fin 1024) : Fin 2048 := ⟨k.val, by have := k.isLt; omega⟩
/-- and row `k` of its lower half: row `1024 + k`. -/
def bot (k : Fin 1024) : Fin 2048 := ⟨1024 + k.val, by have := k.isLt; omega⟩

/-- A sum over 2048 indices is the sum over the upper half plus the sum over the lower half. -/
theorem sum_halves {M : Type*} [AddCommMonoid M] (f : Fin 2048 → M) :
    ∑ k : Fin 2048, f k = ∑ k : Fin 1024, f (top k) + ∑ k : Fin 1024, f (bot k) :=
  (Fin.sum_univ_add (a := 1024) (b := 1024) f).trans (by
    congr 1 <;> exact Finset.sum_congr rfl fun k _ => congrArg f (Fin.ext rfl))

/-! ## Four matrices joined along the columns -/

theorem join4_cols_0 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 0 (by decide) q)) = x0 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 0 (by decide) q)) 0 (by show (0 : Nat) < 4; omega) ⟨2, ![n, 1024]⟩ x0 rfl rfl 0 rfl (ix2 r q)
    (fun b hb => match b with
      | ⟨0, _⟩ => rfl
      | ⟨1, _⟩ => absurd rfl hb)
    (by show 0 + q.val = 1024 * 0 + q.val; omega)

theorem join4_cols_1 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 1 (by decide) q)) = x1 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 1 (by decide) q)) 1 (by show (1 : Nat) < 4; omega) ⟨2, ![n, 1024]⟩ x1 rfl rfl 1024 rfl (ix2 r q)
    (fun b hb => match b with
      | ⟨0, _⟩ => rfl
      | ⟨1, _⟩ => absurd rfl hb)
    (by show 1024 + q.val = 1024 * 1 + q.val; omega)

theorem join4_cols_2 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 2 (by decide) q)) = x2 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 2 (by decide) q)) 2 (by show (2 : Nat) < 4; omega) ⟨2, ![n, 1024]⟩ x2 rfl rfl 2048 rfl (ix2 r q)
    (fun b hb => match b with
      | ⟨0, _⟩ => rfl
      | ⟨1, _⟩ => absurd rfl hb)
    (by show 2048 + q.val = 1024 * 2 + q.val; omega)

theorem join4_cols_3 {α : Type} {n : Nat} (x0 x1 x2 x3 : (⟨2, ![n, 1024]⟩ : Shape).Idx → α)
    (h : Shape.Concatenates [(⟨2, ![n, 1024]⟩ : Shape), ⟨2, ![n, 1024]⟩, ⟨2, ![n, 1024]⟩, ⟨2, ![n, 1024]⟩] ⟨2, ![n, 4096]⟩ 1)
    (r : Fin n) (q : Fin 1024) :
    concatenate (⟨2, ![n, 4096]⟩ : Shape) 1 [⟨⟨2, ![n, 1024]⟩, x0⟩, ⟨⟨2, ![n, 1024]⟩, x1⟩, ⟨⟨2, ![n, 1024]⟩, x2⟩, ⟨⟨2, ![n, 1024]⟩, x3⟩] h
      (ix2 r (lane 3 (by decide) q)) = x3 (ix2 r q) :=
  concatenate_apply_piece (t := ⟨2, ![n, 4096]⟩) 1 [⟨⟨2, ![n, 1024]⟩, x0⟩, ⟨⟨2, ![n, 1024]⟩, x1⟩, ⟨⟨2, ![n, 1024]⟩, x2⟩, ⟨⟨2, ![n, 1024]⟩, x3⟩] h
    (ix2 r (lane 3 (by decide) q)) 3 (by show (3 : Nat) < 4; omega) ⟨2, ![n, 1024]⟩ x3 rfl rfl 3072 rfl (ix2 r q)
    (fun b hb => match b with
      | ⟨0, _⟩ => rfl
      | ⟨1, _⟩ => absurd rfl hb)
    (by show 3072 + q.val = 1024 * 3 + q.val; omega)

/-! ## Four vectors joined end to end -/

theorem join4_vec_0 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 0 (by decide) q)) = x0 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 0 (by decide) q)) 0 (by show (0 : Nat) < 4; omega) ⟨1, ![1024]⟩ x0 rfl rfl 0 rfl (ix1 q)
    (fun b hb => match b with
      | ⟨0, _⟩ => absurd rfl hb)
    (by show 0 + q.val = 1024 * 0 + q.val; omega)

theorem join4_vec_1 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 1 (by decide) q)) = x1 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 1 (by decide) q)) 1 (by show (1 : Nat) < 4; omega) ⟨1, ![1024]⟩ x1 rfl rfl 1024 rfl (ix1 q)
    (fun b hb => match b with
      | ⟨0, _⟩ => absurd rfl hb)
    (by show 1024 + q.val = 1024 * 1 + q.val; omega)

theorem join4_vec_2 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 2 (by decide) q)) = x2 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 2 (by decide) q)) 2 (by show (2 : Nat) < 4; omega) ⟨1, ![1024]⟩ x2 rfl rfl 2048 rfl (ix1 q)
    (fun b hb => match b with
      | ⟨0, _⟩ => absurd rfl hb)
    (by show 2048 + q.val = 1024 * 2 + q.val; omega)

theorem join4_vec_3 {α : Type} (x0 x1 x2 x3 : (⟨1, ![1024]⟩ : Shape).Idx → α)
    (h : Shape.Concatenates [(⟨1, ![1024]⟩ : Shape), ⟨1, ![1024]⟩, ⟨1, ![1024]⟩, ⟨1, ![1024]⟩] ⟨1, ![4096]⟩ 0)
    (q : Fin 1024) :
    concatenate (⟨1, ![4096]⟩ : Shape) 0 [⟨⟨1, ![1024]⟩, x0⟩, ⟨⟨1, ![1024]⟩, x1⟩, ⟨⟨1, ![1024]⟩, x2⟩, ⟨⟨1, ![1024]⟩, x3⟩] h
      (ix1 (lane 3 (by decide) q)) = x3 (ix1 q) :=
  concatenate_apply_piece (t := ⟨1, ![4096]⟩) 0 [⟨⟨1, ![1024]⟩, x0⟩, ⟨⟨1, ![1024]⟩, x1⟩, ⟨⟨1, ![1024]⟩, x2⟩, ⟨⟨1, ![1024]⟩, x3⟩] h
    (ix1 (lane 3 (by decide) q)) 3 (by show (3 : Nat) < 4; omega) ⟨1, ![1024]⟩ x3 rfl rfl 3072 rfl (ix1 q)
    (fun b hb => match b with
      | ⟨0, _⟩ => absurd rfl hb)
    (by show 3072 + q.val = 1024 * 3 + q.val; omega)

/-! ## Two matrices joined along the columns: the left one's columns first -/

theorem join2_cols_left {α : Type} {n : Nat} (x0 x1 : (⟨2, ![n, 1024]⟩ : Shape).Idx → α)
    (h : Shape.Concatenates [(⟨2, ![n, 1024]⟩ : Shape), ⟨2, ![n, 1024]⟩] ⟨2, ![n, 2048]⟩ 1) (r : Fin n) (k : Fin 1024) :
    concatenate (⟨2, ![n, 2048]⟩ : Shape) 1 [⟨⟨2, ![n, 1024]⟩, x0⟩, ⟨⟨2, ![n, 1024]⟩, x1⟩] h (ix2 r (top k)) = x0 (ix2 r k) :=
  concatenate_apply_piece (t := ⟨2, ![n, 2048]⟩) 1 [⟨⟨2, ![n, 1024]⟩, x0⟩, ⟨⟨2, ![n, 1024]⟩, x1⟩] h (ix2 r (top k)) 0 (by show (0 : Nat) < 2; omega) ⟨2, ![n, 1024]⟩ x0 rfl rfl 0 rfl (ix2 r k)
    (fun b hb => match b with
      | ⟨0, _⟩ => rfl
      | ⟨1, _⟩ => absurd rfl hb)
    (by show 0 + k.val = k.val; omega)

theorem join2_cols_right {α : Type} {n : Nat} (x0 x1 : (⟨2, ![n, 1024]⟩ : Shape).Idx → α)
    (h : Shape.Concatenates [(⟨2, ![n, 1024]⟩ : Shape), ⟨2, ![n, 1024]⟩] ⟨2, ![n, 2048]⟩ 1) (r : Fin n) (k : Fin 1024) :
    concatenate (⟨2, ![n, 2048]⟩ : Shape) 1 [⟨⟨2, ![n, 1024]⟩, x0⟩, ⟨⟨2, ![n, 1024]⟩, x1⟩] h (ix2 r (bot k)) = x1 (ix2 r k) :=
  concatenate_apply_piece (t := ⟨2, ![n, 2048]⟩) 1 [⟨⟨2, ![n, 1024]⟩, x0⟩, ⟨⟨2, ![n, 1024]⟩, x1⟩] h (ix2 r (bot k)) 1 (by show (1 : Nat) < 2; omega) ⟨2, ![n, 1024]⟩ x1 rfl rfl 1024 rfl (ix2 r k)
    (fun b hb => match b with
      | ⟨0, _⟩ => rfl
      | ⟨1, _⟩ => absurd rfl hb)
    (by show 1024 + k.val = 1024 + k.val; omega)

end Cert.JoinFour
-- ==== Proof.LibJoinRows.lean ====
/-
  Four matrices of 1024 rows each, stacked one above the other, read at an index.

  A fused gate layer may keep its four gates' weight matrices as ONE matrix of 4·1024 rows: row `1024·g + q` of the
  stacked matrix is row `q` of gate `g`'s own matrix. This file states that for a join of four `1024 × n` matrices
  along the rows (any column count `n`), one lemma per piece.
-/
import Idealize.ShloMosaic.Lib.Pipeline.Value
import Idealize.ShloMosaic.Lib.ValueIdx
import proofs.«167211_j77988016160946_2_alg».proof.Proof.LibJoinFour

namespace Cert.JoinRows

open Idealize.ShloMosaic Idealize.ShloMosaic.ValueIdx Cert.JoinFour

/-! ## Four matrices joined along the rows -/

theorem join4_rows_0 {α : Type} {n : Nat} (x0 x1 x2 x3 : (⟨2, ![1024, n]⟩ : Shape).Idx → α)
    (h : Shape.Concatenates [(⟨2, ![1024, n]⟩ : Shape), ⟨2, ![1024, n]⟩, ⟨2, ![1024, n]⟩, ⟨2, ![1024, n]⟩] ⟨2, ![4096, n]⟩ 0)
    (q : Fin 1024) (k : Fin n) :
    concatenate (⟨2, ![4096, n]⟩ : Shape) 0 [⟨⟨2, ![1024, n]⟩, x0⟩, ⟨⟨2, ![1024, n]⟩, x1⟩, ⟨⟨2, ![1024, n]⟩, x2⟩, ⟨⟨2, ![1024, n]⟩, x3⟩] h
      (ix2 (lane 0 (by decide) q) k) = x0 (ix2 q k) :=
  concatenate_apply_piece (t := ⟨2, ![4096, n]⟩) 0 [⟨⟨2, ![1024, n]⟩, x0⟩, ⟨⟨2, ![1024, n]⟩, x1⟩, ⟨⟨2, ![1024, n]⟩, x2⟩, ⟨⟨2, ![1024, n]⟩, x3⟩] h
    (ix2 (lane 0 (by decide) q) k) 0 (by show (0 : Nat) < 4; omega) ⟨2, ![1024, n]⟩ x0 rfl rfl 0 rfl (ix2 q k)
    (fun b hb => match b with
      | ⟨0, _⟩ => absurd rfl hb
      | ⟨1, _⟩ => rfl)
    (by show 0 + q.val = 1024 * 0 + q.val; omega)

theorem join4_rows_1 {α : Type} {n : Nat} (x0 x1 x2 x3 : (⟨2, ![1024, n]⟩ : Shape).Idx → α)
    (h : Shape.Concatenates [(⟨2, ![1024, n]⟩ : Shape), ⟨2, ![1024, n]⟩, ⟨2, ![1024, n]⟩, ⟨2, ![1024, n]⟩] ⟨2, ![4096, n]⟩ 0)
    (q : Fin 1024) (k : Fin n) :
    concatenate (⟨2, ![4096, n]⟩ : Shape) 0 [⟨⟨2, ![1024, n]⟩, x0⟩, ⟨⟨2, ![1024, n]⟩, x1⟩, ⟨⟨2, ![1024, n]⟩, x2⟩, ⟨⟨2, ![1024, n]⟩, x3⟩] h
      (ix2 (lane 1 (by decide) q) k) = x1 (ix2 q k) :=
  concatenate_apply_piece (t := ⟨2, ![4096, n]⟩) 0 [⟨⟨2, ![1024, n]⟩, x0⟩, ⟨⟨2, ![1024, n]⟩, x1⟩, ⟨⟨2, ![1024, n]⟩, x2⟩, ⟨⟨2, ![1024, n]⟩, x3⟩] h
    (ix2 (lane 1 (by decide) q) k) 1 (by show (1 : Nat) < 4; omega) ⟨2, ![1024, n]⟩ x1 rfl rfl 1024 rfl (ix2 q k)
    (fun b hb => match b with
      | ⟨0, _⟩ => absurd rfl hb
      | ⟨1, _⟩ => rfl)
    (by show 1024 + q.val = 1024 * 1 + q.val; omega)

theorem join4_rows_2 {α : Type} {n : Nat} (x0 x1 x2 x3 : (⟨2, ![1024, n]⟩ : Shape).Idx → α)
    (h : Shape.Concatenates [(⟨2, ![1024, n]⟩ : Shape), ⟨2, ![1024, n]⟩, ⟨2, ![1024, n]⟩, ⟨2, ![1024, n]⟩] ⟨2, ![4096, n]⟩ 0)
    (q : Fin 1024) (k : Fin n) :
    concatenate (⟨2, ![4096, n]⟩ : Shape) 0 [⟨⟨2, ![1024, n]⟩, x0⟩, ⟨⟨2, ![1024, n]⟩, x1⟩, ⟨⟨2, ![1024, n]⟩, x2⟩, ⟨⟨2, ![1024, n]⟩, x3⟩] h
      (ix2 (lane 2 (by decide) q) k) = x2 (ix2 q k) :=
  concatenate_apply_piece (t := ⟨2, ![4096, n]⟩) 0 [⟨⟨2, ![1024, n]⟩, x0⟩, ⟨⟨2, ![1024, n]⟩, x1⟩, ⟨⟨2, ![1024, n]⟩, x2⟩, ⟨⟨2, ![1024, n]⟩, x3⟩] h
    (ix2 (lane 2 (by decide) q) k) 2 (by show (2 : Nat) < 4; omega) ⟨2, ![1024, n]⟩ x2 rfl rfl 2048 rfl (ix2 q k)
    (fun b hb => match b with
      | ⟨0, _⟩ => absurd rfl hb
      | ⟨1, _⟩ => rfl)
    (by show 2048 + q.val = 1024 * 2 + q.val; omega)

theorem join4_rows_3 {α : Type} {n : Nat} (x0 x1 x2 x3 : (⟨2, ![1024, n]⟩ : Shape).Idx → α)
    (h : Shape.Concatenates [(⟨2, ![1024, n]⟩ : Shape), ⟨2, ![1024, n]⟩, ⟨2, ![1024, n]⟩, ⟨2, ![1024, n]⟩] ⟨2, ![4096, n]⟩ 0)
    (q : Fin 1024) (k : Fin n) :
    concatenate (⟨2, ![4096, n]⟩ : Shape) 0 [⟨⟨2, ![1024, n]⟩, x0⟩, ⟨⟨2, ![1024, n]⟩, x1⟩, ⟨⟨2, ![1024, n]⟩, x2⟩, ⟨⟨2, ![1024, n]⟩, x3⟩] h
      (ix2 (lane 3 (by decide) q) k) = x3 (ix2 q k) :=
  concatenate_apply_piece (t := ⟨2, ![4096, n]⟩) 0 [⟨⟨2, ![1024, n]⟩, x0⟩, ⟨⟨2, ![1024, n]⟩, x1⟩, ⟨⟨2, ![1024, n]⟩, x2⟩, ⟨⟨2, ![1024, n]⟩, x3⟩] h
    (ix2 (lane 3 (by decide) q) k) 3 (by show (3 : Nat) < 4; omega) ⟨2, ![1024, n]⟩ x3 rfl rfl 3072 rfl (ix2 q k)
    (fun b hb => match b with
      | ⟨0, _⟩ => absurd rfl hb
      | ⟨1, _⟩ => rfl)
    (by show 3072 + q.val = 1024 * 3 + q.val; omega)

end Cert.JoinRows
-- ==== Proof.RefIsSpec.lean ====
/-
  The reference program computes the specification.

  The reference stacks the four gates' `1024 × 1024` weight matrices by rows into one `4096 × 1024` matrix and
  transposes it, so entry `(k, 1024·g + q)` of the transposed stack is `W_g[q, k]`; it multiplies the input and the
  hidden state by the two transposed stacks, adds the two products, and adds a bias row broadcast down the rows, the
  bias row being the join of the four vectors `bx_g + bh_g`. Column `1024·g + q` of that `4096 × 4096` array at row `r`
  is therefore gate `g`'s pre-activation at `(r, q)`, and the four gate blocks are its column slices at the offsets
  0, 1024, 2048, 3072. The sigmoid is written as `1 / (1 + exp(-z))` with the constant one broadcast from a scalar,
  which is the logistic function by definition; the rest is the cell's two formulas, entry by entry.
-/
import proofs.«167211_j77988016160946_2_alg».proof.Proof.Gen.ReferenceIdeal.Read
import proofs.«167211_j77988016160946_2_alg».proof.Proof.LstmSpec
import proofs.«167211_j77988016160946_2_alg».proof.Proof.LibJoinFour
import proofs.«167211_j77988016160946_2_alg».proof.Proof.LibJoinRows
import Idealize.ShloMosaic.Lib.IdealHost

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.JoinFour Cert.JoinRows Cert.LstmSpec

variable (x0 : (⟨S4096x1024, .f32⟩ : BufTy).Contents (Elt Ideal))
  (x1 : (⟨S4096x1024, .f32⟩ : BufTy).Contents (Elt Ideal))
  (x2 : (⟨S4096x1024, .f32⟩ : BufTy).Contents (Elt Ideal))
  (x3 : (⟨S1024x1024, .f32⟩ : BufTy).Contents (Elt Ideal))
  (x4 : (⟨S1024, .f32⟩ : BufTy).Contents (Elt Ideal))
  (x5 : (⟨S1024x1024, .f32⟩ : BufTy).Contents (Elt Ideal))
  (x6 : (⟨S1024, .f32⟩ : BufTy).Contents (Elt Ideal))
  (x7 : (⟨S1024x1024, .f32⟩ : BufTy).Contents (Elt Ideal))
  (x8 : (⟨S1024, .f32⟩ : BufTy).Contents (Elt Ideal))
  (x9 : (⟨S1024x1024, .f32⟩ : BufTy).Contents (Elt Ideal))
  (x10 : (⟨S1024, .f32⟩ : BufTy).Contents (Elt Ideal))
  (x11 : (⟨S1024x1024, .f32⟩ : BufTy).Contents (Elt Ideal))
  (x12 : (⟨S1024, .f32⟩ : BufTy).Contents (Elt Ideal))
  (x13 : (⟨S1024x1024, .f32⟩ : BufTy).Contents (Elt Ideal))
  (x14 : (⟨S1024, .f32⟩ : BufTy).Contents (Elt Ideal))
  (x15 : (⟨S1024x1024, .f32⟩ : BufTy).Contents (Elt Ideal))
  (x16 : (⟨S1024, .f32⟩ : BufTy).Contents (Elt Ideal))
  (x17 : (⟨S1024x1024, .f32⟩ : BufTy).Contents (Elt Ideal))
  (x18 : (⟨S1024, .f32⟩ : BufTy).Contents (Elt Ideal))

/-! ## The transposed weight stacks and the bias row, read at a gate's column -/

/-- Entry `(k, 1024·0 + q)` of the transposed input-side stack is entry `(q, k)` of gate 0's matrix. -/
theorem wx_0 (q k : Fin 1024) :
    val_main_v7 (F := Ideal) x3 x5 x7 x9 (ix2 k (lane 0 (by decide) q)) = x3 (ix2 q k) := by
  rw [val_main_v7_apply]
  have e : idx_main_v7 (ix2 k (lane 0 (by decide) q)) = ix2 (lane 0 (by decide) q) k := funext fun a => by
    match a with
    | ⟨0, _⟩ => rfl
    | ⟨1, _⟩ => rfl
  rw [e]
  exact join4_rows_0 x3 x5 x7 x9 _ q k

/-- Entry `(k, 1024·0 + q)` of the transposed hidden-side stack is entry `(q, k)` of gate 0's matrix. -/
theorem wh_0 (q k : Fin 1024) :
    val_main_v9 (F := Ideal) x11 x13 x15 x17 (ix2 k (lane 0 (by decide) q)) = x11 (ix2 q k) := by
  rw [val_main_v9_apply]
  have e : idx_main_v9 (ix2 k (lane 0 (by decide) q)) = ix2 (lane 0 (by decide) q) k := funext fun a => by
    match a with
    | ⟨0, _⟩ => rfl
    | ⟨1, _⟩ => rfl
  rw [e]
  exact join4_rows_0 x11 x13 x15 x17 _ q k

/-- Entry `1024·0 + q` of the joined bias row is the sum of gate 0's two biases at `q`. -/
theorem bias_0 (q : Fin 1024) :
    val_main_v6 (F := Ideal) x4 x6 x8 x10 x12 x14 x16 x18 (ix1 (lane 0 (by decide) q)) = x4 (ix1 q) + x12 (ix1 q) :=
  join4_vec_0 _ _ _ _ _ q

/-- Entry `(k, 1024·1 + q)` of the transposed input-side stack is entry `(q, k)` of gate 1's matrix. -/
theorem wx_1 (q k : Fin 1024) :
    val_main_v7 (F := Ideal) x3 x5 x7 x9 (ix2 k (lane 1 (by decide) q)) = x5 (ix2 q k) := by
  rw [val_main_v7_apply]
  have e : idx_main_v7 (ix2 k (lane 1 (by decide) q)) = ix2 (lane 1 (by decide) q) k := funext fun a => by
    match a with
    | ⟨0, _⟩ => rfl
    | ⟨1, _⟩ => rfl
  rw [e]
  exact join4_rows_1 x3 x5 x7 x9 _ q k

/-- Entry `(k, 1024·1 + q)` of the transposed hidden-side stack is entry `(q, k)` of gate 1's matrix. -/
theorem wh_1 (q k : Fin 1024) :
    val_main_v9 (F := Ideal) x11 x13 x15 x17 (ix2 k (lane 1 (by decide) q)) = x13 (ix2 q k) := by
  rw [val_main_v9_apply]
  have e : idx_main_v9 (ix2 k (lane 1 (by decide) q)) = ix2 (lane 1 (by decide) q) k := funext fun a => by
    match a with
    | ⟨0, _⟩ => rfl
    | ⟨1, _⟩ => rfl
  rw [e]
  exact join4_rows_1 x11 x13 x15 x17 _ q k

/-- Entry `1024·1 + q` of the joined bias row is the sum of gate 1's two biases at `q`. -/
theorem bias_1 (q : Fin 1024) :
    val_main_v6 (F := Ideal) x4 x6 x8 x10 x12 x14 x16 x18 (ix1 (lane 1 (by decide) q)) = x6 (ix1 q) + x14 (ix1 q) :=
  join4_vec_1 _ _ _ _ _ q

/-- Entry `(k, 1024·2 + q)` of the transposed input-side stack is entry `(q, k)` of gate 2's matrix. -/
theorem wx_2 (q k : Fin 1024) :
    val_main_v7 (F := Ideal) x3 x5 x7 x9 (ix2 k (lane 2 (by decide) q)) = x7 (ix2 q k) := by
  rw [val_main_v7_apply]
  have e : idx_main_v7 (ix2 k (lane 2 (by decide) q)) = ix2 (lane 2 (by decide) q) k := funext fun a => by
    match a with
    | ⟨0, _⟩ => rfl
    | ⟨1, _⟩ => rfl
  rw [e]
  exact join4_rows_2 x3 x5 x7 x9 _ q k

/-- Entry `(k, 1024·2 + q)` of the transposed hidden-side stack is entry `(q, k)` of gate 2's matrix. -/
theorem wh_2 (q k : Fin 1024) :
    val_main_v9 (F := Ideal) x11 x13 x15 x17 (ix2 k (lane 2 (by decide) q)) = x15 (ix2 q k) := by
  rw [val_main_v9_apply]
  have e : idx_main_v9 (ix2 k (lane 2 (by decide) q)) = ix2 (lane 2 (by decide) q) k := funext fun a => by
    match a with
    | ⟨0, _⟩ => rfl
    | ⟨1, _⟩ => rfl
  rw [e]
  exact join4_rows_2 x11 x13 x15 x17 _ q k

/-- Entry `1024·2 + q` of the joined bias row is the sum of gate 2's two biases at `q`. -/
theorem bias_2 (q : Fin 1024) :
    val_main_v6 (F := Ideal) x4 x6 x8 x10 x12 x14 x16 x18 (ix1 (lane 2 (by decide) q)) = x8 (ix1 q) + x16 (ix1 q) :=
  join4_vec_2 _ _ _ _ _ q

/-- Entry `(k, 1024·3 + q)` of the transposed input-side stack is entry `(q, k)` of gate 3's matrix. -/
theorem wx_3 (q k : Fin 1024) :
    val_main_v7 (F := Ideal) x3 x5 x7 x9 (ix2 k (lane 3 (by decide) q)) = x9 (ix2 q k) := by
  rw [val_main_v7_apply]
  have e : idx_main_v7 (ix2 k (lane 3 (by decide) q)) = ix2 (lane 3 (by decide) q) k := funext fun a => by
    match a with
    | ⟨0, _⟩ => rfl
    | ⟨1, _⟩ => rfl
  rw [e]
  exact join4_rows_3 x3 x5 x7 x9 _ q k

/-- Entry `(k, 1024·3 + q)` of the transposed hidden-side stack is entry `(q, k)` of gate 3's matrix. -/
theorem wh_3 (q k : Fin 1024) :
    val_main_v9 (F := Ideal) x11 x13 x15 x17 (ix2 k (lane 3 (by decide) q)) = x17 (ix2 q k) := by
  rw [val_main_v9_apply]
  have e : idx_main_v9 (ix2 k (lane 3 (by decide) q)) = ix2 (lane 3 (by decide) q) k := funext fun a => by
    match a with
    | ⟨0, _⟩ => rfl
    | ⟨1, _⟩ => rfl
  rw [e]
  exact join4_rows_3 x11 x13 x15 x17 _ q k

/-- Entry `1024·3 + q` of the joined bias row is the sum of gate 3's two biases at `q`. -/
theorem bias_3 (q : Fin 1024) :
    val_main_v6 (F := Ideal) x4 x6 x8 x10 x12 x14 x16 x18 (ix1 (lane 3 (by decide) q)) = x10 (ix1 q) + x18 (ix1 q) :=
  join4_vec_3 _ _ _ _ _ q

/-! ## The fused pre-activation array at a row and a column -/

/-- Entry `(r, c)` of the `4096 × 4096` array of all four gates' pre-activations: the two dot products with column
    `c` of the transposed stacks, plus entry `c` of the bias row. -/
theorem fused_apply (r c : Fin 4096) :
    val_main_v14 (F := Ideal) x0 x1 x3 x4 x5 x6 x7 x8 x9 x10 x11 x12 x13 x14 x15 x16 x17 x18 (ix2 r c)
      = ((∑ k : Fin 1024, x0 (ix2 r k) * val_main_v7 (F := Ideal) x3 x5 x7 x9 (ix2 k c))
          + (∑ k : Fin 1024, x1 (ix2 r k) * val_main_v9 (F := Ideal) x11 x13 x15 x17 (ix2 k c)))
        + val_main_v6 (F := Ideal) x4 x6 x8 x10 x12 x14 x16 x18 (ix1 c) := by
  rw [val_main_v14_apply, val_main_v11_apply, val_main_v8_apply, val_main_v10_apply, val_main_v13_apply,
    val_main_v12_apply, Ideal.addf_def, Ideal.addf_def]
  have el : ∀ k : Fin 1024, lidx_main_v8 (ix2 r c) k = ix2 r k := fun k => funext fun a => by
    match a with
    | ⟨0, _⟩ => rfl
    | ⟨1, _⟩ => rfl
  have er : ∀ k : Fin 1024, ridx_main_v8 (ix2 r c) k = ix2 k c := fun k => funext fun a => by
    match a with
    | ⟨0, _⟩ => rfl
    | ⟨1, _⟩ => rfl
  have eb : idx_main_v12 (idx_main_v13 (ix2 r c)) = ix1 c := funext fun a => by
    match a with
    | ⟨0, _⟩ => rfl
  refine congrArg₂ (· + ·) (congrArg₂ (· + ·) (Finset.sum_congr rfl fun k _ => ?_) (Finset.sum_congr rfl fun k _ => ?_)) ?_
  · exact congrArg₂ (· * ·) (congrArg x0 (el k)) (congrArg (val_main_v7 (F := Ideal) x3 x5 x7 x9) (er k))
  · exact congrArg₂ (· * ·) (congrArg x1 (el k)) (congrArg (val_main_v9 (F := Ideal) x11 x13 x15 x17) (er k))
  · exact congrArg (val_main_v6 (F := Ideal) x4 x6 x8 x10 x12 x14 x16 x18) eb

/-- The column slice at offset 0 is gate 0's pre-activation. -/
theorem gate_0 (r : Fin 4096) (q : Fin 1024) :
    val_main_v15 (F := Ideal) x0 x1 x3 x4 x5 x6 x7 x8 x9 x10 x11 x12 x13 x14 x15 x16 x17 x18 (ix2 r q) = pre x0 x1 x3 x11 x4 x12 r q := by
  rw [val_main_v15_apply]
  have e : idx_main_v15 (ix2 r q) = ix2 r (lane 0 (by decide) q) := funext fun a => Fin.ext (by
    match a with
    | ⟨0, _⟩ => rfl
    | ⟨1, _⟩ => show q.val = 1024 * 0 + q.val; omega)
  rw [e, fused_apply, bias_0]
  unfold pre
  congr 2
  · exact Finset.sum_congr rfl fun k _ => congrArg (x0 (ix2 r k) * ·) (wx_0 x3 x5 x7 x9 q k)
  · exact Finset.sum_congr rfl fun k _ => congrArg (x1 (ix2 r k) * ·) (wh_0 x11 x13 x15 x17 q k)

/-- The column slice at offset 1024 is gate 1's pre-activation. -/
theorem gate_1 (r : Fin 4096) (q : Fin 1024) :
    val_main_v16 (F := Ideal) x0 x1 x3 x4 x5 x6 x7 x8 x9 x10 x11 x12 x13 x14 x15 x16 x17 x18 (ix2 r q) = pre x0 x1 x5 x13 x6 x14 r q := by
  rw [val_main_v16_apply]
  have e : idx_main_v16 (ix2 r q) = ix2 r (lane 1 (by decide) q) := funext fun a => Fin.ext (by
    match a with
    | ⟨0, _⟩ => rfl
    | ⟨1, _⟩ => show 1024 + q.val = 1024 * 1 + q.val; omega)
  rw [e, fused_apply, bias_1]
  unfold pre
  congr 2
  · exact Finset.sum_congr rfl fun k _ => congrArg (x0 (ix2 r k) * ·) (wx_1 x3 x5 x7 x9 q k)
  · exact Finset.sum_congr rfl fun k _ => congrArg (x1 (ix2 r k) * ·) (wh_1 x11 x13 x15 x17 q k)

/-- The column slice at offset 2048 is gate 2's pre-activation. -/
theorem gate_2 (r : Fin 4096) (q : Fin 1024) :
    val_main_v17 (F := Ideal) x0 x1 x3 x4 x5 x6 x7 x8 x9 x10 x11 x12 x13 x14 x15 x16 x17 x18 (ix2 r q) = pre x0 x1 x7 x15 x8 x16 r q := by
  rw [val_main_v17_apply]
  have e : idx_main_v17 (ix2 r q) = ix2 r (lane 2 (by decide) q) := funext fun a => Fin.ext (by
    match a with
    | ⟨0, _⟩ => rfl
    | ⟨1, _⟩ => show 2048 + q.val = 1024 * 2 + q.val; omega)
  rw [e, fused_apply, bias_2]
  unfold pre
  congr 2
  · exact Finset.sum_congr rfl fun k _ => congrArg (x0 (ix2 r k) * ·) (wx_2 x3 x5 x7 x9 q k)
  · exact Finset.sum_congr rfl fun k _ => congrArg (x1 (ix2 r k) * ·) (wh_2 x11 x13 x15 x17 q k)

/-- The column slice at offset 3072 is gate 3's pre-activation. -/
theorem gate_3 (r : Fin 4096) (q : Fin 1024) :
    val_main_v18 (F := Ideal) x0 x1 x3 x4 x5 x6 x7 x8 x9 x10 x11 x12 x13 x14 x15 x16 x17 x18 (ix2 r q) = pre x0 x1 x9 x17 x10 x18 r q := by
  rw [val_main_v18_apply]
  have e : idx_main_v18 (ix2 r q) = ix2 r (lane 3 (by decide) q) := funext fun a => Fin.ext (by
    match a with
    | ⟨0, _⟩ => rfl
    | ⟨1, _⟩ => show 3072 + q.val = 1024 * 3 + q.val; omega)
  rw [e, fused_apply, bias_3]
  unfold pre
  congr 2
  · exact Finset.sum_congr rfl fun k _ => congrArg (x0 (ix2 r k) * ·) (wx_3 x3 x5 x7 x9 q k)
  · exact Finset.sum_congr rfl fun k _ => congrArg (x1 (ix2 r k) * ·) (wh_3 x11 x13 x15 x17 q k)

/-! ## The sigmoid as written is the logistic function -/

/-- `1 / (1 + exp(-z))`, with the one read from its bit pattern, is the logistic function of `z`. -/
theorem sigmoid_eq (z : EReal) :
    Ideal.div (Ideal.ofBits .f32 0x3F800000#32) (Ideal.ofBits .f32 0x3F800000#32 + Ideal.exp (-z)) = Ideal.logistic z := by
  rw [Ideal.ofBits_one_f32]; rfl

/-- The input gate's sigmoid at `(r, q)` is the logistic function of its pre-activation. -/
theorem sig_0 (r : Fin 4096) (q : Fin 1024) :
    val_main_v24 (F := Ideal) x0 x1 x3 x4 x5 x6 x7 x8 x9 x10 x11 x12 x13 x14 x15 x16 x17 x18 (ix2 r q) = Ideal.logistic (pre x0 x1 x3 x11 x4 x12 r q) := by
  rw [val_main_v24_apply, val_main_v23_apply, val_main_cst_0_apply, val_main_v22_apply,
    val_main_v21_apply, val_main_cst_apply, val_main_v20_apply, val_main_v19_apply, gate_0]
  exact sigmoid_eq _

/-- The forget gate's sigmoid at `(r, q)` is the logistic function of its pre-activation. -/
theorem sig_1 (r : Fin 4096) (q : Fin 1024) :
    val_main_v30 (F := Ideal) x0 x1 x3 x4 x5 x6 x7 x8 x9 x10 x11 x12 x13 x14 x15 x16 x17 x18 (ix2 r q) = Ideal.logistic (pre x0 x1 x5 x13 x6 x14 r q) := by
  rw [val_main_v30_apply, val_main_v29_apply, val_main_cst_2_apply, val_main_v28_apply,
    val_main_v27_apply, val_main_cst_1_apply, val_main_v26_apply, val_main_v25_apply, gate_1]
  exact sigmoid_eq _

/-- The output gate's sigmoid at `(r, q)` is the logistic function of its pre-activation. -/
theorem sig_3 (r : Fin 4096) (q : Fin 1024) :
    val_main_v37 (F := Ideal) x0 x1 x3 x4 x5 x6 x7 x8 x9 x10 x11 x12 x13 x14 x15 x16 x17 x18 (ix2 r q) = Ideal.logistic (pre x0 x1 x9 x17 x10 x18 r q) := by
  rw [val_main_v37_apply, val_main_v36_apply, val_main_cst_4_apply, val_main_v35_apply,
    val_main_v34_apply, val_main_cst_3_apply, val_main_v33_apply, val_main_v32_apply, gate_3]
  exact sigmoid_eq _

/-- The cell gate's hyperbolic tangent at `(r, q)`. -/
theorem tanh_2 (r : Fin 4096) (q : Fin 1024) :
    val_main_v31 (F := Ideal) x0 x1 x3 x4 x5 x6 x7 x8 x9 x10 x11 x12 x13 x14 x15 x16 x17 x18 (ix2 r q) = Ideal.tanh (pre x0 x1 x7 x15 x8 x16 r q) := by
  rw [val_main_v31_apply, gate_2]
  rfl

/-! ## The two results -/

/-- The reference's new cell state at `(r, q)`. -/
theorem ref_cell_apply (r : Fin 4096) (q : Fin 1024) :
    val_main_v40 (F := Ideal) x0 x1 x2 x3 x4 x5 x6 x7 x8 x9 x10 x11 x12 x13 x14 x15 x16 x17 x18 (ix2 r q)
      = cellOf (pre x0 x1 x3 x11 x4 x12 r q) (pre x0 x1 x5 x13 x6 x14 r q) (pre x0 x1 x7 x15 x8 x16 r q) (x2 (ix2 r q)) := by
  rw [val_main_v40_apply, val_main_v38_apply, val_main_v39_apply, sig_0, sig_1, tanh_2]
  rfl

/-- The reference's new cell state is the specification's. -/
theorem ref_cell : val_main_v40 (F := Ideal) x0 x1 x2 x3 x4 x5 x6 x7 x8 x9 x10 x11 x12 x13 x14 x15 x16 x17 x18 = cellNew x0 x1 x2 x3 x4 x5 x6 x7 x8 x9 x10 x11 x12 x13 x14 x15 x16 x17 x18 := by
  funext j
  obtain ⟨r, q, rfl⟩ : ∃ (r : Fin 4096) (q : Fin 1024), j = ix2 r q := ⟨j 0, j 1, eq_ix2 j⟩
  exact ref_cell_apply x0 x1 x2 x3 x4 x5 x6 x7 x8 x9 x10 x11 x12 x13 x14 x15 x16 x17 x18 r q

/-- The reference's new hidden state is the specification's. -/
theorem ref_hidden : val_main_v42 (F := Ideal) x0 x1 x2 x3 x4 x5 x6 x7 x8 x9 x10 x11 x12 x13 x14 x15 x16 x17 x18 = hiddenNew x0 x1 x2 x3 x4 x5 x6 x7 x8 x9 x10 x11 x12 x13 x14 x15 x16 x17 x18 := by
  funext j
  obtain ⟨r, q, rfl⟩ : ∃ (r : Fin 4096) (q : Fin 1024), j = ix2 r q := ⟨j 0, j 1, eq_ix2 j⟩
  rw [val_main_v42_apply, val_main_v41_apply, sig_3, ref_cell]
  rfl

end Cert.RefSide

end
-- ==== Proof.Claims.lean ====
/-
  The five claims from the pieces.

  Each program's frame claim is its run with the argument arrays unchanged. The two programs are joined through one
  specification: the kernel's run ends with the new hidden state and the new cell state of the LSTM cell, as functions
  of the launch contents of the nineteen argument arrays; the reference's run ends with its own composed terms of its
  arguments, which are those same two functions; and the two memories agree on the arguments. So both end with equal
  results, the hidden state delivered twice and the cell state once.
-/
import proofs.«167211_j77988016160946_2_alg».proof.Defs
import proofs.«167211_j77988016160946_2_alg».proof.Proof.Gen.Kernel
import proofs.«167211_j77988016160946_2_alg».proof.Proof.Gen.KernelIdeal
import proofs.«167211_j77988016160946_2_alg».proof.Proof.Gen.ReferenceIdeal
import proofs.«167211_j77988016160946_2_alg».proof.Proof.Gen.Pre_finite_inputs
import proofs.«167211_j77988016160946_2_alg».proof.Proof.Gen.ReferenceIdeal.Read
import proofs.«167211_j77988016160946_2_alg».proof.Proof.FrameKernel
import proofs.«167211_j77988016160946_2_alg».proof.Proof.FrameKernelIdeal
import proofs.«167211_j77988016160946_2_alg».proof.Proof.CellArrays
import proofs.«167211_j77988016160946_2_alg».proof.Proof.RefIsSpec

noncomputable section

namespace Cert.Proof.CellClaims

open Idealize.ShloMosaic Idealize.ShloMosaic.TcCoe Idealize.SL.Sem

/-- The kernel runs and leaves its arguments unchanged. -/
theorem frame_kernel : Cert.frame_Kernel := fun m ρ _ => Cert.Kernel.Cell.frame m ρ

/-- The kernel read over the extended reals runs and leaves its arguments unchanged. -/
theorem frame_kernelIdeal : Cert.frame_KernelIdeal := fun m ρ _ => Cert.KernelIdeal.Cell.frame m ρ

/-- The reference runs and leaves its arguments unchanged: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- No operation was rewritten between the kernel and its reading over the extended reals. -/
theorem preserves : Cert.preserves_Kernel_KernelIdeal := trivial

/-- The reference's hidden-state result, from arguments that agree with the kernel's, is the kernel's. -/
theorem ref_hidden_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v42 m' c = Cert.KernelIdeal.CellValue.hidArr m c := by
  obtain ⟨a0, a1, a2, a3, a4, a5, a6, a7, a8, a9, a10, a11, a12, a13, a14, a15, a16, a17, a18⟩ := hagree
  rw [Cert.ReferenceIdeal.Read.val_main_v42_eq, Cert.RefSide.ref_hidden, a0, a1, a2, a3, a4, a5, a6, a7, a8, a9, a10, a11, a12, a13, a14, a15, a16, a17, a18]
  rfl

/-- The reference's cell-state result, from arguments that agree with the kernel's, is the kernel's. -/
theorem ref_cell_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v40 m' c = Cert.KernelIdeal.CellValue.cellArr m c := by
  obtain ⟨a0, a1, a2, a3, a4, a5, a6, a7, a8, a9, a10, a11, a12, a13, a14, a15, a16, a17, a18⟩ := hagree
  rw [Cert.ReferenceIdeal.Read.val_main_v40_eq, Cert.RefSide.ref_cell, a0, a1, a2, a3, a4, a5, a6, a7, a8, a9, a10, a11, a12, a13, a14, a15, a16, a17, a18]
  rfl

/-- Given the kernel's value run — it ends with the specification's hidden and cell states of its launch contents and
    its arguments unchanged — the kernel and the reference, from memories that agree on the arguments, end with equal
    results and unchanged arguments. -/
theorem algebraic_of (hk : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v18_0) = Cert.KernelIdeal.CellValue.hidArr m c
      ∧ r.2.mem ((c.tc : Thread Cert.KernelIdeal.nD Cert.KernelIdeal.τ).loc Cert.KernelIdeal.main_v18_1) = Cert.KernelIdeal.CellValue.cellArr m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))) :
    Cert.algebraic_KernelIdeal_ReferenceIdeal := by
  intro m ρ m' ρ' _ hagree
  refine ⟨fun c => Cert.KernelIdeal.CellValue.hidArr m c, fun c => Cert.KernelIdeal.CellValue.hidArr m c,
    fun c => Cert.KernelIdeal.CellValue.cellArr m c, ?_, ?_⟩
  · exact (θ_run (Cert.KernelIdeal.defs (F := Ideal)) _ _).mono (fun _ h c => ⟨(h c).1, (h c).1, (h c).2⟩) (hk m ρ)
  · exact (θ_run (Cert.ReferenceIdeal.defs (F := Ideal)) _ _).mono
      (fun _ h c => ⟨(h c).1.trans (ref_hidden_agree m m' c (hagree c)), (h c).2.1.trans (ref_hidden_agree m m' c (hagree c)),
        (h c).2.2.1.trans (ref_cell_agree m m' c (hagree c)), (h c).2.2.2⟩)
      (Cert.ReferenceIdeal.Value.run (F := Ideal) m' ρ')

end Cert.Proof.CellClaims

end
-- ==== Proof.HostJoins.lean ====
/-
  What the host leaves in the three arrays the LSTM-cell kernel reads whole, entry by entry.

  Before the kernel runs, the host transposes each gate's weight matrix and sets the four side by side along the
  columns — once for the input-side weights, once for the hidden-side weights —, and adds each gate's two bias
  vectors and sets the four sums end to end as one row. So column `1024·g + q` of a joined weight matrix, at row `k`,
  is entry `(q, k)` of gate `g`'s matrix, and entry `1024·g + q` of the bias row is the sum of gate `g`'s two
  biases at `q`. (Rounding the joined matrices to the narrow float format changes nothing on extended reals.)
-/
import proofs.«167211_j77988016160946_2_alg».proof.Proof.FrameKernelIdeal
import proofs.«167211_j77988016160946_2_alg».proof.Proof.LibJoinFour
import Idealize.ShloMosaic.Lib.Pipeline.Value
import Idealize.ShloMosaic.Lib.ValueIdx
import Idealize.ShloMosaic.Lib.StableHlo.Run

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.StableHlo
open Idealize.ShloMosaic.ValueIdx Cert.JoinFour
open Idealize.ShloMosaic.Pipeline (Dat)

variable (m : (ℓ : Loc nD τ sig) → Buf (Elt Ideal) ℓ) (ρ : Dev nD → PrngReg)

/-! ## The two joins -/

/-- Four square matrices, each transposed, set side by side along the columns. -/
def joinCols (W0 W1 W2 W3 : S1024x1024.Idx → EReal) : S1024x4096.Idx → EReal :=
  concatenate S1024x4096 1 [⟨S1024x1024, transpose S1024x1024 [1, 0] W0 transposes_S1024x1024_S1024x1024_1_0⟩,
    ⟨S1024x1024, transpose S1024x1024 [1, 0] W1 transposes_S1024x1024_S1024x1024_1_0⟩,
    ⟨S1024x1024, transpose S1024x1024 [1, 0] W2 transposes_S1024x1024_S1024x1024_1_0⟩,
    ⟨S1024x1024, transpose S1024x1024 [1, 0] W3 transposes_S1024x1024_S1024x1024_1_0⟩]
    concatenates_S1024x1024_S1024x1024_S1024x1024_S1024x1024_S1024x4096_d1

/-- Four sums of two vectors, set end to end, as one row. -/
def biasJoin (a0 a1 a2 a3 b0 b1 b2 b3 : S1024.Idx → EReal) : S1x4096.Idx → EReal :=
  shapeCast S1x4096 (concatenate S4096 0 [⟨S1024, fun i => a0 i + b0 i⟩, ⟨S1024, fun i => a1 i + b1 i⟩,
    ⟨S1024, fun i => a2 i + b2 i⟩, ⟨S1024, fun i => a3 i + b3 i⟩]
    concatenates_S1024_S1024_S1024_S1024_S4096_d0) shapeCasts_S4096_S1x4096

/-! ## What the host operations leave in the three arrays the kernel reads whole -/

/-- Read on through the host operations once a joined operand has been named. -/
local macro "results_on" : tactic => `(tactic| repeat (first
  | rw [unary_result] | rw [binary_result] | rw [reshape_result] | rw [nary_result]
  | (rw [unary_result_ne]; rotate_left; decide) | (rw [binary_result_ne]; rotate_left; decide)
  | (rw [reshape_result_ne]; rotate_left; decide) | (rw [nary_result_ne]; rotate_left; decide)))

set_option maxHeartbeats 4000000 in
/-- The input-side weights as the kernel finds them: the four gates' matrices, each transposed, joined along the
    columns (the rounding to the narrow format is the identity on extended reals). -/
theorem joinedX_eq (c : Dev nD) : (V m c main_v16 : S1024x4096.Idx → EReal) = joinCols (m ((c.tc : Thread nD τ).loc main_arg3)) (m ((c.tc : Thread nD τ).loc main_arg5)) (m ((c.tc : Thread nD τ).loc main_arg7)) (m ((c.tc : Thread nD τ).loc main_arg9)) := by
  dsimp only [V, hostOps0]
  after_results
  dsimp only
  simp only [Matrix.cons_val]
  results_on
  rfl

set_option maxHeartbeats 4000000 in
/-- The hidden-side weights likewise. -/
theorem joinedH_eq (c : Dev nD) : (V m c main_v17 : S1024x4096.Idx → EReal) = joinCols (m ((c.tc : Thread nD τ).loc main_arg11)) (m ((c.tc : Thread nD τ).loc main_arg13)) (m ((c.tc : Thread nD τ).loc main_arg15)) (m ((c.tc : Thread nD τ).loc main_arg17)) := by
  dsimp only [V, hostOps0]
  after_results
  dsimp only
  simp only [Matrix.cons_val]
  results_on
  rfl

set_option maxHeartbeats 4000000 in
/-- The bias row: the four gates' two biases added, joined end to end, as one row. -/
theorem biasRow_eq (c : Dev nD) : (V m c main_v15 : S1x4096.Idx → EReal)
    = biasJoin (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18)) := by
  dsimp only [V, hostOps0]
  after_results
  dsimp only
  simp only [Matrix.cons_val]
  results_on
  rfl

/-! ## The joined arrays read at an entry -/

theorem joinCols_0 (W0 W1 W2 W3 : S1024x1024.Idx → EReal) (k q : Fin 1024) :
    joinCols W0 W1 W2 W3 (ix2 k (lane 0 (by decide) q)) = W0 (ix2 q k) := by
  unfold joinCols
  refine (join4_cols_0 _ _ _ _ _ k q).trans ?_
  exact transpose_apply [1, 0] W0 transposes_S1024x1024_S1024x1024_1_0 (ix2 k q) (ix2 q k) (fun b => match b with
    | ⟨0, _⟩ => rfl
    | ⟨1, _⟩ => rfl)

theorem joinCols_1 (W0 W1 W2 W3 : S1024x1024.Idx → EReal) (k q : Fin 1024) :
    joinCols W0 W1 W2 W3 (ix2 k (lane 1 (by decide) q)) = W1 (ix2 q k) := by
  unfold joinCols
  refine (join4_cols_1 _ _ _ _ _ k q).trans ?_
  exact transpose_apply [1, 0] W1 transposes_S1024x1024_S1024x1024_1_0 (ix2 k q) (ix2 q k) (fun b => match b with
    | ⟨0, _⟩ => rfl
    | ⟨1, _⟩ => rfl)

theorem joinCols_2 (W0 W1 W2 W3 : S1024x1024.Idx → EReal) (k q : Fin 1024) :
    joinCols W0 W1 W2 W3 (ix2 k (lane 2 (by decide) q)) = W2 (ix2 q k) := by
  unfold joinCols
  refine (join4_cols_2 _ _ _ _ _ k q).trans ?_
  exact transpose_apply [1, 0] W2 transposes_S1024x1024_S1024x1024_1_0 (ix2 k q) (ix2 q k) (fun b => match b with
    | ⟨0, _⟩ => rfl
    | ⟨1, _⟩ => rfl)

theorem joinCols_3 (W0 W1 W2 W3 : S1024x1024.Idx → EReal) (k q : Fin 1024) :
    joinCols W0 W1 W2 W3 (ix2 k (lane 3 (by decide) q)) = W3 (ix2 q k) := by
  unfold joinCols
  refine (join4_cols_3 _ _ _ _ _ k q).trans ?_
  exact transpose_apply [1, 0] W3 transposes_S1024x1024_S1024x1024_1_0 (ix2 k q) (ix2 q k) (fun b => match b with
    | ⟨0, _⟩ => rfl
    | ⟨1, _⟩ => rfl)

theorem biasJoin_0 (a0 a1 a2 a3 b0 b1 b2 b3 : S1024.Idx → EReal) (q : Fin 1024) :
    biasJoin a0 a1 a2 a3 b0 b1 b2 b3 (ix2 (0 : Fin 1) (lane 0 (by decide) q)) = a0 (ix1 q) + b0 (ix1 q) := by
  unfold biasJoin
  refine (shapeCast_addUnit_apply ![4096] _ shapeCasts_S4096_S1x4096 (ix2 (0 : Fin 1) (lane 0 (by decide) q))).trans ?_
  have e : (fun a : Fin 1 => (ix2 (0 : Fin 1) (lane 0 (by decide) q) : S1x4096.Idx) a.succ) = (ix1 (lane 0 (by decide) q) : S4096.Idx) :=
    funext fun a => match a with | ⟨0, _⟩ => rfl
  rw [e]
  exact join4_vec_0 _ _ _ _ _ q

theorem biasJoin_1 (a0 a1 a2 a3 b0 b1 b2 b3 : S1024.Idx → EReal) (q : Fin 1024) :
    biasJoin a0 a1 a2 a3 b0 b1 b2 b3 (ix2 (0 : Fin 1) (lane 1 (by decide) q)) = a1 (ix1 q) + b1 (ix1 q) := by
  unfold biasJoin
  refine (shapeCast_addUnit_apply ![4096] _ shapeCasts_S4096_S1x4096 (ix2 (0 : Fin 1) (lane 1 (by decide) q))).trans ?_
  have e : (fun a : Fin 1 => (ix2 (0 : Fin 1) (lane 1 (by decide) q) : S1x4096.Idx) a.succ) = (ix1 (lane 1 (by decide) q) : S4096.Idx) :=
    funext fun a => match a with | ⟨0, _⟩ => rfl
  rw [e]
  exact join4_vec_1 _ _ _ _ _ q

theorem biasJoin_2 (a0 a1 a2 a3 b0 b1 b2 b3 : S1024.Idx → EReal) (q : Fin 1024) :
    biasJoin a0 a1 a2 a3 b0 b1 b2 b3 (ix2 (0 : Fin 1) (lane 2 (by decide) q)) = a2 (ix1 q) + b2 (ix1 q) := by
  unfold biasJoin
  refine (shapeCast_addUnit_apply ![4096] _ shapeCasts_S4096_S1x4096 (ix2 (0 : Fin 1) (lane 2 (by decide) q))).trans ?_
  have e : (fun a : Fin 1 => (ix2 (0 : Fin 1) (lane 2 (by decide) q) : S1x4096.Idx) a.succ) = (ix1 (lane 2 (by decide) q) : S4096.Idx) :=
    funext fun a => match a with | ⟨0, _⟩ => rfl
  rw [e]
  exact join4_vec_2 _ _ _ _ _ q

theorem biasJoin_3 (a0 a1 a2 a3 b0 b1 b2 b3 : S1024.Idx → EReal) (q : Fin 1024) :
    biasJoin a0 a1 a2 a3 b0 b1 b2 b3 (ix2 (0 : Fin 1) (lane 3 (by decide) q)) = a3 (ix1 q) + b3 (ix1 q) := by
  unfold biasJoin
  refine (shapeCast_addUnit_apply ![4096] _ shapeCasts_S4096_S1x4096 (ix2 (0 : Fin 1) (lane 3 (by decide) q))).trans ?_
  have e : (fun a : Fin 1 => (ix2 (0 : Fin 1) (lane 3 (by decide) q) : S1x4096.Idx) a.succ) = (ix1 (lane 3 (by decide) q) : S4096.Idx) :=
    funext fun a => match a with | ⟨0, _⟩ => rfl
  rw [e]
  exact join4_vec_3 _ _ _ _ _ q

end Cert.KernelIdeal.CellValue

end
-- ==== Proof.TileCell.lean ====
/-
  What the kernel body computes for one tile of 256 batch rows, entry by entry.

  The body forms the four gates' pre-activations for the tile at once, as one `256 × 4096` array: the input tile times
  the joined input weights, plus the hidden-state tile times the joined hidden weights, plus the joined bias row
  repeated down the 256 rows. Over the extended reals, narrowing a value to fewer bits and casting a shape to itself
  change nothing, and a matrix product into a zero accumulator is the plain dot product; so entry `(p, j)` of that array
  is `tilePre … p j` below (`pay1_apply`).

  Gate `g` occupies columns `1024·g .. 1024·g + 1023`. Cutting those blocks out and applying the logistic function and the
  hyperbolic tangent entry by entry gives the new cell tile, `σ(f)·c + σ(i)·tanh(g)` (`pay2_apply`), and the new hidden
  tile, `σ(o)·tanh(new cell)` (`pay3_apply`): at `(p, q)` they are the specification's `cellOf` and `hiddenOf` of the
  pre-activations at columns `1024·g + q`. Every step is a definition unfolded or an index identified; no law of
  arithmetic is used.
-/
import proofs.«167211_j77988016160946_2_alg».proof.Proof.Gen.KernelIdeal.Skeleton
import proofs.«167211_j77988016160946_2_alg».proof.Proof.LstmSpec
import proofs.«167211_j77988016160946_2_alg».proof.Proof.LibJoinFour
import Idealize.ShloMosaic.Lib.ValueIdx
import Idealize.ShloMosaic.Lib.Pipeline.Value
import Idealize.ShloMosaic.Lib.ValueLayout
import Idealize.ShloMosaic.PureOps.Ideal.Laws

noncomputable section

namespace Cert.TileCell

open Cert.KernelIdeal Cert.KernelIdeal.Gen Idealize.ShloMosaic Idealize.ShloMosaic.ValueIdx Cert.LstmSpec Cert.JoinFour

/-- One tile's gate pre-activation at local row `p` and joined column `j`: the dot products of row `p` of the input
    tile and of the hidden-state tile with column `j` of the two joined weight matrices, plus entry `j` of the joined
    bias row. -/
def tilePre (xb hb : (⟨2, ![256, 1024]⟩ : Shape).Idx → EReal) (Wx Wh : (⟨2, ![1024, 4096]⟩ : Shape).Idx → EReal)
    (b : (⟨2, ![1, 4096]⟩ : Shape).Idx → EReal) (p : Fin 256) (j : Fin 4096) : EReal :=
  ((∑ k : Fin 1024, xb (ix2 p k) * Wx (ix2 k j)) + (∑ k : Fin 1024, hb (ix2 p k) * Wh (ix2 k j))) + b (ix2 (0 : Fin 1) j)

/-! ## The matrix product at an index -/

/-- Row coordinate of the left operand's index: the output's row. -/
theorem mm_lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
/-- Column coordinate of the left operand's index: the summation index. -/
theorem mm_lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
/-- Row coordinate of the right operand's index: the summation index. -/
theorem mm_rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
/-- Column coordinate of the right operand's index: the output's column. -/
theorem mm_rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- The kernel's matrix product into a zero accumulator, read at row `p` and column `j`: the dot product of row `p` of
    the left operand with column `j` of the right one. -/
theorem mm_apply (a : FVec Ideal S256x1024 .bf16) (w : FVec Ideal S1024x4096 .bf16) (p : Fin 256) (j : Fin 4096) :
    matmul dot_S256x1024_S1024x4096_S256x4096_1_0_0_1_n_n none a w (constant (F := Ideal) S256x4096 .f32 0x00000000#32) (ix2 p j)
      = ∑ k : Fin 1024, a (ix2 p k) * w (ix2 k j) := by
  refine (Ideal.matmul_constant_zero_apply dot_S256x1024_S1024x4096_S256x4096_1_0_0_1_n_n none a w (ix2 p j)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k := funext fun ax => Fin.ext (by
    match ax with
    | ⟨0, _⟩ => exact mm_lhs_0 _ _
    | ⟨1, _⟩ => exact (mm_lhs_1 _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j := funext fun ax => Fin.ext (by
    match ax with
    | ⟨0, _⟩ => exact (mm_rhs_0 _ _).trans hk
    | ⟨1, _⟩ => exact mm_rhs_1 _ _)
  rw [el, er]

/-! ## A block of 1024 columns cut out of the 4096 joined ones

Columns `1024·g .. 1024·g + 1023` of a `256 × 4096` array, read at `(p, q)`: the array at `(p, 1024·g + q)`. -/

theorem slice0_apply {α : Type} (y : S256x4096.Idx → α) (h : S256x4096.Slices ![0, 0] S256x1024) (p : Fin 256) (q : Fin 1024) :
    extractStridedSlice S256x1024 ![0, 0] y h (ix2 p q) = y (ix2 p (lane 0 (by decide) q)) :=
  extractStridedSlice_apply ![0, 0] y h (ix2 p q) (ix2 p (lane 0 (by decide) q)) (fun a => match a with
    | ⟨0, _⟩ => by show p.val = 0 + p.val; omega
    | ⟨1, _⟩ => by show 1024 * 0 + q.val = 0 + q.val; omega)

theorem slice1_apply {α : Type} (y : S256x4096.Idx → α) (h : S256x4096.Slices ![0, 1024] S256x1024) (p : Fin 256) (q : Fin 1024) :
    extractStridedSlice S256x1024 ![0, 1024] y h (ix2 p q) = y (ix2 p (lane 1 (by decide) q)) :=
  extractStridedSlice_apply ![0, 1024] y h (ix2 p q) (ix2 p (lane 1 (by decide) q)) (fun a => match a with
    | ⟨0, _⟩ => by show p.val = 0 + p.val; omega
    | ⟨1, _⟩ => by show 1024 * 1 + q.val = 1024 + q.val; omega)

theorem slice2_apply {α : Type} (y : S256x4096.Idx → α) (h : S256x4096.Slices ![0, 2048] S256x1024) (p : Fin 256) (q : Fin 1024) :
    extractStridedSlice S256x1024 ![0, 2048] y h (ix2 p q) = y (ix2 p (lane 2 (by decide) q)) :=
  extractStridedSlice_apply ![0, 2048] y h (ix2 p q) (ix2 p (lane 2 (by decide) q)) (fun a => match a with
    | ⟨0, _⟩ => by show p.val = 0 + p.val; omega
    | ⟨1, _⟩ => by show 1024 * 2 + q.val = 2048 + q.val; omega)

theorem slice3_apply {α : Type} (y : S256x4096.Idx → α) (h : S256x4096.Slices ![0, 3072] S256x1024) (p : Fin 256) (q : Fin 1024) :
    extractStridedSlice S256x1024 ![0, 3072] y h (ix2 p q) = y (ix2 p (lane 3 (by decide) q)) :=
  extractStridedSlice_apply ![0, 3072] y h (ix2 p q) (ix2 p (lane 3 (by decide) q)) (fun a => match a with
    | ⟨0, _⟩ => by show p.val = 0 + p.val; omega
    | ⟨1, _⟩ => by show 1024 * 3 + q.val = 3072 + q.val; omega)

/-! ## The three values the kernel body computes, entry by entry -/

/-- The gate pre-activations of one tile: narrowing the two tiles and casting a shape to itself change nothing over the
    extended reals, each matrix product into a zero accumulator is a dot product, and the bias row is read at its
    column whatever the row. -/
theorem pay1_apply (v0 v2 : Vec Ideal S256x1024 .f32) (v5 v7 : Vec Ideal S1024x4096 .bf16) (v9 : Vec Ideal S1x4096 .f32)
    (p : Fin 256) (j : Fin 4096) :
    k0_pay1 (F := Ideal) v0 v2 v5 v7 v9 (ix2 p j) = tilePre v0 v2 v5 v7 v9 p j := by
  unfold k0_pay1 tilePre
  rw [shapeCast_self v5, shapeCast_self v7, shapeCast_self v9]
  show (matmul dot_S256x1024_S1024x4096_S256x4096_1_0_0_1_n_n none (truncf .bf16 v0 _) v5 (constant (F := Ideal) S256x4096 .f32 0x00000000#32) (ix2 p j)
      + matmul dot_S256x1024_S1024x4096_S256x4096_1_0_0_1_n_n none (truncf .bf16 v2 _) v7 (constant (F := Ideal) S256x4096 .f32 0x00000000#32) (ix2 p j))
      + broadcastTo S256x4096 v9 _ (ix2 p j) = _
  rw [mm_apply, mm_apply, broadcastTo_1b_ab_apply]
  rfl

/-- The new cell tile: the forget gate's logistic times the old cell entry plus the input gate's logistic times the
    hyperbolic tangent of the cell gate, the three gates being column blocks 1, 0 and 2 of the pre-activations. -/
theorem pay2_apply (v0 v2 v4 : Vec Ideal S256x1024 .f32) (v5 v7 : Vec Ideal S1024x4096 .bf16) (v9 : Vec Ideal S1x4096 .f32)
    (p : Fin 256) (q : Fin 1024) :
    k0_pay2 (F := Ideal) v0 v2 v4 v5 v7 v9 (ix2 p q)
      = cellOf (tilePre v0 v2 v5 v7 v9 p (lane 0 (by decide) q)) (tilePre v0 v2 v5 v7 v9 p (lane 1 (by decide) q))
          (tilePre v0 v2 v5 v7 v9 p (lane 2 (by decide) q)) (v4 (ix2 p q)) := by
  have e0 := pay1_apply v0 v2 v5 v7 v9 p (lane 0 (by decide) q)
  have e1 := pay1_apply v0 v2 v5 v7 v9 p (lane 1 (by decide) q)
  have e2 := pay1_apply v0 v2 v5 v7 v9 p (lane 2 (by decide) q)
  unfold k0_pay2 cellOf
  generalize k0_pay1 (F := Ideal) v0 v2 v5 v7 v9 = y at e0 e1 e2 ⊢
  rw [← e0, ← e1, ← e2, ← slice0_apply y _ p q, ← slice1_apply y _ p q, ← slice2_apply y _ p q]
  rfl

/-- The new hidden tile: the output gate's logistic, column block 3 of the pre-activations, times the hyperbolic
    tangent of the new cell entry. -/
theorem pay3_apply (v0 v2 v4 : Vec Ideal S256x1024 .f32) (v5 v7 : Vec Ideal S1024x4096 .bf16) (v9 : Vec Ideal S1x4096 .f32)
    (p : Fin 256) (q : Fin 1024) :
    k0_pay3 (F := Ideal) v0 v2 v4 v5 v7 v9 (ix2 p q)
      = hiddenOf (tilePre v0 v2 v5 v7 v9 p (lane 3 (by decide) q)) (k0_pay2 (F := Ideal) v0 v2 v4 v5 v7 v9 (ix2 p q)) := by
  have e3 := pay1_apply v0 v2 v5 v7 v9 p (lane 3 (by decide) q)
  unfold k0_pay3 hiddenOf
  generalize k0_pay2 (F := Ideal) v0 v2 v4 v5 v7 v9 = c
  generalize k0_pay1 (F := Ideal) v0 v2 v5 v7 v9 = y at e3 ⊢
  rw [← e3, ← slice3_apply y _ p q]
  rfl

end Cert.TileCell

end
-- ==== Proof.TileToSpec.lean ====
/-
  One tile's entries are the specification's entries.

  A tile holds 256 consecutive batch rows: its local row `p` is batch row `r` of the whole arrays. The joined
  weight matrices hold gate `g`'s matrix transposed in columns `1024·g .. 1024·g + 1023`, and the joined bias row
  the sum of gate `g`'s two biases there. Under exactly these readings of the six loaded blocks, the tile's
  pre-activation at column `1024·g + q` is the specification's pre-activation of gate `g` at `(r, q)` — the same
  two sums, term by term — and so the tile's new cell and hidden entries at `(p, q)` are the specification's
  at `(r, q)`.
-/
import proofs.«167211_j77988016160946_2_alg».proof.Proof.TileCell

noncomputable section

namespace Cert.TileCell

open Cert.KernelIdeal Cert.KernelIdeal.Gen Idealize.ShloMosaic Idealize.ShloMosaic.ValueIdx Cert.LstmSpec Cert.JoinFour

/-- A tile's pre-activation at a joined column is one gate's pre-activation, once the blocks are read as rows of
    the whole arrays and as that gate's weights and biases. -/
theorem tilePre_eq_pre (x h : Mat 4096 1024) (Wxg Whg : Mat 1024 1024) (bxg bhg : Row 1024)
    (xb hb : (⟨2, ![256, 1024]⟩ : Shape).Idx → EReal) (Wx Wh : (⟨2, ![1024, 4096]⟩ : Shape).Idx → EReal)
    (b : (⟨2, ![1, 4096]⟩ : Shape).Idx → EReal) (r : Fin 4096) (p : Fin 256) (j : Fin 4096) (q : Fin 1024)
    (hx : ∀ k : Fin 1024, xb (ix2 p k) = x (ix2 r k)) (hh : ∀ k : Fin 1024, hb (ix2 p k) = h (ix2 r k))
    (hWx : ∀ k : Fin 1024, Wx (ix2 k j) = Wxg (ix2 q k)) (hWh : ∀ k : Fin 1024, Wh (ix2 k j) = Whg (ix2 q k))
    (hbias : b (ix2 (0 : Fin 1) j) = bxg (ix1 q) + bhg (ix1 q)) :
    tilePre xb hb Wx Wh b p j = pre x h Wxg Whg bxg bhg r q := by
  unfold tilePre pre
  rw [hbias, Finset.sum_congr rfl (fun k _ => by rw [hx k, hWx k] : ∀ k ∈ Finset.univ, xb (ix2 p k) * Wx (ix2 k j) = x (ix2 r k) * Wxg (ix2 q k)),
    Finset.sum_congr rfl (fun k _ => by rw [hh k, hWh k] : ∀ k ∈ Finset.univ, hb (ix2 p k) * Wh (ix2 k j) = h (ix2 r k) * Whg (ix2 q k))]

/-- The tile's new cell entry at `(p, q)` is the specification's at `(r, q)`. -/
theorem cell_entry (x h cc : Mat 4096 1024) (Wx0 Wx1 Wx2 Wx3 Wh0 Wh1 Wh2 Wh3 : Mat 1024 1024) (bx0 bx1 bx2 bx3 bh0 bh1 bh2 bh3 : Row 1024)
    (v0 v2 v4 : Vec Ideal S256x1024 .f32) (v5 v7 : Vec Ideal S1024x4096 .bf16) (v9 : Vec Ideal S1x4096 .f32)
    (r : Fin 4096) (p : Fin 256) (q : Fin 1024)
    (h0 : ∀ k : Fin 1024, v0 (ix2 p k) = x (ix2 r k)) (h2 : ∀ k : Fin 1024, v2 (ix2 p k) = h (ix2 r k)) (h4 : v4 (ix2 p q) = cc (ix2 r q))
    (hx0 : ∀ k : Fin 1024, v5 (ix2 k (lane 0 (by decide) q)) = Wx0 (ix2 q k))
    (hx1 : ∀ k : Fin 1024, v5 (ix2 k (lane 1 (by decide) q)) = Wx1 (ix2 q k))
    (hx2 : ∀ k : Fin 1024, v5 (ix2 k (lane 2 (by decide) q)) = Wx2 (ix2 q k))
    (hx3 : ∀ k : Fin 1024, v5 (ix2 k (lane 3 (by decide) q)) = Wx3 (ix2 q k))
    (hh0 : ∀ k : Fin 1024, v7 (ix2 k (lane 0 (by decide) q)) = Wh0 (ix2 q k))
    (hh1 : ∀ k : Fin 1024, v7 (ix2 k (lane 1 (by decide) q)) = Wh1 (ix2 q k))
    (hh2 : ∀ k : Fin 1024, v7 (ix2 k (lane 2 (by decide) q)) = Wh2 (ix2 q k))
    (hh3 : ∀ k : Fin 1024, v7 (ix2 k (lane 3 (by decide) q)) = Wh3 (ix2 q k))
    (hb0 : v9 (ix2 (0 : Fin 1) (lane 0 (by decide) q)) = bx0 (ix1 q) + bh0 (ix1 q))
    (hb1 : v9 (ix2 (0 : Fin 1) (lane 1 (by decide) q)) = bx1 (ix1 q) + bh1 (ix1 q))
    (hb2 : v9 (ix2 (0 : Fin 1) (lane 2 (by decide) q)) = bx2 (ix1 q) + bh2 (ix1 q))
    (hb3 : v9 (ix2 (0 : Fin 1) (lane 3 (by decide) q)) = bx3 (ix1 q) + bh3 (ix1 q)) :
    k0_pay2 (F := Ideal) v0 v2 v4 v5 v7 v9 (ix2 p q) = cellNew x h cc Wx0 bx0 Wx1 bx1 Wx2 bx2 Wx3 bx3 Wh0 bh0 Wh1 bh1 Wh2 bh2 Wh3 bh3 (ix2 r q) := by
  rw [pay2_apply]
  show cellOf _ _ _ _ = cellOf (pre x h Wx0 Wh0 bx0 bh0 r q) (pre x h Wx1 Wh1 bx1 bh1 r q) (pre x h Wx2 Wh2 bx2 bh2 r q) (cc (ix2 r q))
  rw [tilePre_eq_pre x h Wx0 Wh0 bx0 bh0 v0 v2 v5 v7 v9 r p (lane 0 (by decide) q) q h0 h2 hx0 hh0 hb0,
    tilePre_eq_pre x h Wx1 Wh1 bx1 bh1 v0 v2 v5 v7 v9 r p (lane 1 (by decide) q) q h0 h2 hx1 hh1 hb1,
    tilePre_eq_pre x h Wx2 Wh2 bx2 bh2 v0 v2 v5 v7 v9 r p (lane 2 (by decide) q) q h0 h2 hx2 hh2 hb2, h4]

/-- The tile's new hidden entry at `(p, q)` is the specification's at `(r, q)`. -/
theorem hidden_entry (x h cc : Mat 4096 1024) (Wx0 Wx1 Wx2 Wx3 Wh0 Wh1 Wh2 Wh3 : Mat 1024 1024) (bx0 bx1 bx2 bx3 bh0 bh1 bh2 bh3 : Row 1024)
    (v0 v2 v4 : Vec Ideal S256x1024 .f32) (v5 v7 : Vec Ideal S1024x4096 .bf16) (v9 : Vec Ideal S1x4096 .f32)
    (r : Fin 4096) (p : Fin 256) (q : Fin 1024)
    (h0 : ∀ k : Fin 1024, v0 (ix2 p k) = x (ix2 r k)) (h2 : ∀ k : Fin 1024, v2 (ix2 p k) = h (ix2 r k)) (h4 : v4 (ix2 p q) = cc (ix2 r q))
    (hx0 : ∀ k : Fin 1024, v5 (ix2 k (lane 0 (by decide) q)) = Wx0 (ix2 q k))
    (hx1 : ∀ k : Fin 1024, v5 (ix2 k (lane 1 (by decide) q)) = Wx1 (ix2 q k))
    (hx2 : ∀ k : Fin 1024, v5 (ix2 k (lane 2 (by decide) q)) = Wx2 (ix2 q k))
    (hx3 : ∀ k : Fin 1024, v5 (ix2 k (lane 3 (by decide) q)) = Wx3 (ix2 q k))
    (hh0 : ∀ k : Fin 1024, v7 (ix2 k (lane 0 (by decide) q)) = Wh0 (ix2 q k))
    (hh1 : ∀ k : Fin 1024, v7 (ix2 k (lane 1 (by decide) q)) = Wh1 (ix2 q k))
    (hh2 : ∀ k : Fin 1024, v7 (ix2 k (lane 2 (by decide) q)) = Wh2 (ix2 q k))
    (hh3 : ∀ k : Fin 1024, v7 (ix2 k (lane 3 (by decide) q)) = Wh3 (ix2 q k))
    (hb0 : v9 (ix2 (0 : Fin 1) (lane 0 (by decide) q)) = bx0 (ix1 q) + bh0 (ix1 q))
    (hb1 : v9 (ix2 (0 : Fin 1) (lane 1 (by decide) q)) = bx1 (ix1 q) + bh1 (ix1 q))
    (hb2 : v9 (ix2 (0 : Fin 1) (lane 2 (by decide) q)) = bx2 (ix1 q) + bh2 (ix1 q))
    (hb3 : v9 (ix2 (0 : Fin 1) (lane 3 (by decide) q)) = bx3 (ix1 q) + bh3 (ix1 q)) :
    k0_pay3 (F := Ideal) v0 v2 v4 v5 v7 v9 (ix2 p q) = hiddenNew x h cc Wx0 bx0 Wx1 bx1 Wx2 bx2 Wx3 bx3 Wh0 bh0 Wh1 bh1 Wh2 bh2 Wh3 bh3 (ix2 r q) := by
  rw [pay3_apply, cell_entry x h cc Wx0 Wx1 Wx2 Wx3 Wh0 Wh1 Wh2 Wh3 bx0 bx1 bx2 bx3 bh0 bh1 bh2 bh3 v0 v2 v4 v5 v7 v9 r p q h0 h2 h4
    hx0 hx1 hx2 hx3 hh0 hh1 hh2 hh3 hb0 hb1 hb2 hb3]
  show hiddenOf _ _ = hiddenOf (pre x h Wx3 Wh3 bx3 bh3 r q) (cellNew x h cc Wx0 bx0 Wx1 bx1 Wx2 bx2 Wx3 bx3 Wh0 bh0 Wh1 bh1 Wh2 bh2 Wh3 bh3 (ix2 r q))
  rw [tilePre_eq_pre x h Wx3 Wh3 bx3 bh3 v0 v2 v5 v7 v9 r p (lane 3 (by decide) q) q h0 h2 hx3 hh3 hb3]

end Cert.TileCell

end
-- ==== Proof.CellValue.lean ====
/-
  What the LSTM-cell program's two result arrays hold at the end, at the extended reals.

  The frame run leaves each result array at the contents the launch theorem computes from the sixteen tiles'
  write-backs. Here those are read. First the three arrays the host prepares: the joined input-side and
  hidden-side weight matrices (column `1024·g + q` is row `q` of gate `g`'s matrix, transposed) and the bias row
  (entry `1024·g + q` is the sum of gate `g`'s two biases at `q`). Then the blocks: tile `t` sees batch rows
  `256·t .. 256·t + 255` and the three prepared arrays whole. So what tile `t` computes at its local `(p, q)` is the
  specification's entry at `(256·t + p, q)`, what it writes back is block `t` of the specification's array, and the
  sixteen blocks cover the array.
-/
import proofs.«167211_j77988016160946_2_alg».proof.Proof.FrameKernelIdeal
import proofs.«167211_j77988016160946_2_alg».proof.Proof.HostJoins
import proofs.«167211_j77988016160946_2_alg».proof.Proof.CellArrays
import proofs.«167211_j77988016160946_2_alg».proof.Proof.TileToSpec
import proofs.«167211_j77988016160946_2_alg».proof.Proof.LibJoinFour
import Idealize.ShloMosaic.Lib.Pipeline.Value
import Idealize.ShloMosaic.Lib.ValueIdx
import Idealize.ShloMosaic.Lib.StableHlo.Run

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.StableHlo
open Idealize.ShloMosaic.ValueIdx Cert.JoinFour
open Idealize.ShloMosaic.Pipeline (Dat)

variable (m : (ℓ : Loc nD τ sig) → Buf (Elt Ideal) ℓ) (ρ : Dev nD → PrngReg)

/-! ## The windows' blocks read at an entry -/

theorem hz : (![0, 0] : Fin 2 → Nat) = fun _ => 0 := funext fun a => by fin_cases a <;> rfl

/-- Where each window's block sits at tile `t`: the batch windows and the two results at block row `t`, the three
    whole-array windows at the origin (decided over the sixteen tiles). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The batch row that is local row `p` of tile `t`. -/
def rowOf (t : Fin cfg0.N) (p : Fin 256) : Fin 4096 :=
  ⟨256 * t.val + p.val, by have h16 : grid0.N = 16 := N_0; have ht : t.val < grid0.N := t.isLt; have := p.isLt; omega⟩

theorem read_x (c : Dev nD) (t : Fin cfg0.N) (p : Fin 256) (k : Fin 1024) :
    iblk m c 0 t (ix2 p k) = m ((c.tc : Thread nD τ).loc main_arg0) (ix2 (rowOf t p) k) := by
  have e := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem read_h (c : Dev nD) (t : Fin cfg0.N) (p : Fin 256) (k : Fin 1024) :
    iblk m c 1 t (ix2 p k) = m ((c.tc : Thread nD τ).loc main_arg1) (ix2 (rowOf t p) k) := by
  have e := idx_facts t
  unfold iblk
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem read_c (c : Dev nD) (t : Fin cfg0.N) (p : Fin 256) (k : Fin 1024) :
    iblk m c 2 t (ix2 p k) = m ((c.tc : Thread nD τ).loc main_arg2) (ix2 (rowOf t p) k) := by
  have e := idx_facts t
  unfold iblk
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

theorem read_wx (c : Dev nD) (t : Fin cfg0.N) (k : Fin 1024) (j : Fin 4096) :
    iblk m c 3 t (ix2 k j) = V m c main_v16 (ix2 k j) := by
  have e := idx_facts t
  unfold iblk
  show V m c main_v16 (((cfg0.win 3).blk t).view.emb (ix2 k j)) = _
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * j.val = j.val; omega

theorem read_wh (c : Dev nD) (t : Fin cfg0.N) (k : Fin 1024) (j : Fin 4096) :
    iblk m c 4 t (ix2 k j) = V m c main_v17 (ix2 k j) := by
  have e := idx_facts t
  unfold iblk
  show V m c main_v17 (((cfg0.win 4).blk t).view.emb (ix2 k j)) = _
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * j.val = j.val; omega

theorem read_bias (c : Dev nD) (t : Fin cfg0.N) (j : Fin 4096) :
    iblk m c 5 t (ix2 (0 : Fin 1) j) = V m c main_v15 (ix2 (0 : Fin 1) j) := by
  have e := idx_facts t
  unfold iblk
  show V m c main_v15 (((cfg0.win 5).blk t).view.emb (ix2 (0 : Fin 1) j)) = _
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * j.val = j.val; omega

/-- Column `1024·g + q` of the joined weights is row `q` of gate `g`'s matrix; entry `1024·g + q` of the bias row is
    the sum of gate `g`'s two biases at `q`. -/
theorem wx_at_0 (c : Dev nD) (t : Fin cfg0.N) (k q : Fin 1024) :
    iblk m c 3 t (ix2 k (lane 0 (by decide) q)) = m ((c.tc : Thread nD τ).loc main_arg3) (ix2 q k) :=
  (read_wx m c t k _).trans ((congrFun (joinedX_eq m c) _).trans (joinCols_0 _ _ _ _ k q))
theorem wh_at_0 (c : Dev nD) (t : Fin cfg0.N) (k q : Fin 1024) :
    iblk m c 4 t (ix2 k (lane 0 (by decide) q)) = m ((c.tc : Thread nD τ).loc main_arg11) (ix2 q k) :=
  (read_wh m c t k _).trans ((congrFun (joinedH_eq m c) _).trans (joinCols_0 _ _ _ _ k q))
theorem bias_at_0 (c : Dev nD) (t : Fin cfg0.N) (q : Fin 1024) :
    iblk m c 5 t (ix2 (0 : Fin 1) (lane 0 (by decide) q))
      = (fun a b : S1024.Idx → EReal => a (ix1 q) + b (ix1 q)) (m ((c.tc : Thread nD τ).loc main_arg4)) (m ((c.tc : Thread nD τ).loc main_arg12)) :=
  (read_bias m c t _).trans ((congrFun (biasRow_eq m c) _).trans (biasJoin_0 _ _ _ _ _ _ _ _ q))
theorem wx_at_1 (c : Dev nD) (t : Fin cfg0.N) (k q : Fin 1024) :
    iblk m c 3 t (ix2 k (lane 1 (by decide) q)) = m ((c.tc : Thread nD τ).loc main_arg5) (ix2 q k) :=
  (read_wx m c t k _).trans ((congrFun (joinedX_eq m c) _).trans (joinCols_1 _ _ _ _ k q))
theorem wh_at_1 (c : Dev nD) (t : Fin cfg0.N) (k q : Fin 1024) :
    iblk m c 4 t (ix2 k (lane 1 (by decide) q)) = m ((c.tc : Thread nD τ).loc main_arg13) (ix2 q k) :=
  (read_wh m c t k _).trans ((congrFun (joinedH_eq m c) _).trans (joinCols_1 _ _ _ _ k q))
theorem bias_at_1 (c : Dev nD) (t : Fin cfg0.N) (q : Fin 1024) :
    iblk m c 5 t (ix2 (0 : Fin 1) (lane 1 (by decide) q))
      = (fun a b : S1024.Idx → EReal => a (ix1 q) + b (ix1 q)) (m ((c.tc : Thread nD τ).loc main_arg6)) (m ((c.tc : Thread nD τ).loc main_arg14)) :=
  (read_bias m c t _).trans ((congrFun (biasRow_eq m c) _).trans (biasJoin_1 _ _ _ _ _ _ _ _ q))
theorem wx_at_2 (c : Dev nD) (t : Fin cfg0.N) (k q : Fin 1024) :
    iblk m c 3 t (ix2 k (lane 2 (by decide) q)) = m ((c.tc : Thread nD τ).loc main_arg7) (ix2 q k) :=
  (read_wx m c t k _).trans ((congrFun (joinedX_eq m c) _).trans (joinCols_2 _ _ _ _ k q))
theorem wh_at_2 (c : Dev nD) (t : Fin cfg0.N) (k q : Fin 1024) :
    iblk m c 4 t (ix2 k (lane 2 (by decide) q)) = m ((c.tc : Thread nD τ).loc main_arg15) (ix2 q k) :=
  (read_wh m c t k _).trans ((congrFun (joinedH_eq m c) _).trans (joinCols_2 _ _ _ _ k q))
theorem bias_at_2 (c : Dev nD) (t : Fin cfg0.N) (q : Fin 1024) :
    iblk m c 5 t (ix2 (0 : Fin 1) (lane 2 (by decide) q))
      = (fun a b : S1024.Idx → EReal => a (ix1 q) + b (ix1 q)) (m ((c.tc : Thread nD τ).loc main_arg8)) (m ((c.tc : Thread nD τ).loc main_arg16)) :=
  (read_bias m c t _).trans ((congrFun (biasRow_eq m c) _).trans (biasJoin_2 _ _ _ _ _ _ _ _ q))
theorem wx_at_3 (c : Dev nD) (t : Fin cfg0.N) (k q : Fin 1024) :
    iblk m c 3 t (ix2 k (lane 3 (by decide) q)) = m ((c.tc : Thread nD τ).loc main_arg9) (ix2 q k) :=
  (read_wx m c t k _).trans ((congrFun (joinedX_eq m c) _).trans (joinCols_3 _ _ _ _ k q))
theorem wh_at_3 (c : Dev nD) (t : Fin cfg0.N) (k q : Fin 1024) :
    iblk m c 4 t (ix2 k (lane 3 (by decide) q)) = m ((c.tc : Thread nD τ).loc main_arg17) (ix2 q k) :=
  (read_wh m c t k _).trans ((congrFun (joinedH_eq m c) _).trans (joinCols_3 _ _ _ _ k q))
theorem bias_at_3 (c : Dev nD) (t : Fin cfg0.N) (q : Fin 1024) :
    iblk m c 5 t (ix2 (0 : Fin 1) (lane 3 (by decide) q))
      = (fun a b : S1024.Idx → EReal => a (ix1 q) + b (ix1 q)) (m ((c.tc : Thread nD τ).loc main_arg10)) (m ((c.tc : Thread nD τ).loc main_arg18)) :=
  (read_bias m c t _).trans ((congrFun (biasRow_eq m c) _).trans (biasJoin_3 _ _ _ _ _ _ _ _ q))

/-! ## One tile's results are the specification's, entry by entry -/

theorem hid_tile (c : Dev nD) (t : Fin cfg0.N) (p : Fin 256) (q : Fin 1024) :
    k0_pay3 (F := Ideal) (iblk m c 0 t) (iblk m c 1 t) (iblk m c 2 t) (iblk m c 3 t) (iblk m c 4 t) (iblk m c 5 t) (ix2 p q) = hidArr m c (ix2 (rowOf t p) q) := by
  unfold hidArr
  exact Cert.TileCell.hidden_entry (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17))
    (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
    (iblk m c 0 t) (iblk m c 1 t) (iblk m c 2 t) (iblk m c 3 t) (iblk m c 4 t) (iblk m c 5 t) (rowOf t p) p q
    (fun k => read_x m c t p k) (fun k => read_h m c t p k) (read_c m c t p q)
    (fun k => wx_at_0 m c t k q) (fun k => wx_at_1 m c t k q) (fun k => wx_at_2 m c t k q) (fun k => wx_at_3 m c t k q)
    (fun k => wh_at_0 m c t k q) (fun k => wh_at_1 m c t k q) (fun k => wh_at_2 m c t k q) (fun k => wh_at_3 m c t k q)
    (bias_at_0 m c t q) (bias_at_1 m c t q) (bias_at_2 m c t q) (bias_at_3 m c t q)

theorem cell_tile (c : Dev nD) (t : Fin cfg0.N) (p : Fin 256) (q : Fin 1024) :
    k0_pay2 (F := Ideal) (iblk m c 0 t) (iblk m c 1 t) (iblk m c 2 t) (iblk m c 3 t) (iblk m c 4 t) (iblk m c 5 t) (ix2 p q) = cellArr m c (ix2 (rowOf t p) q) := by
  unfold cellArr
  exact Cert.TileCell.cell_entry (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg7)) (m ((c.tc : Thread nD τ).loc main_arg9)) (m ((c.tc : Thread nD τ).loc main_arg11)) (m ((c.tc : Thread nD τ).loc main_arg13)) (m ((c.tc : Thread nD τ).loc main_arg15)) (m ((c.tc : Thread nD τ).loc main_arg17))
    (m ((c.tc : Thread nD τ).loc main_arg4)) (m ((c.tc : Thread nD τ).loc main_arg6)) (m ((c.tc : Thread nD τ).loc main_arg8)) (m ((c.tc : Thread nD τ).loc main_arg10)) (m ((c.tc : Thread nD τ).loc main_arg12)) (m ((c.tc : Thread nD τ).loc main_arg14)) (m ((c.tc : Thread nD τ).loc main_arg16)) (m ((c.tc : Thread nD τ).loc main_arg18))
    (iblk m c 0 t) (iblk m c 1 t) (iblk m c 2 t) (iblk m c 3 t) (iblk m c 4 t) (iblk m c 5 t) (rowOf t p) p q
    (fun k => read_x m c t p k) (fun k => read_h m c t p k) (read_c m c t p q)
    (fun k => wx_at_0 m c t k q) (fun k => wx_at_1 m c t k q) (fun k => wx_at_2 m c t k q) (fun k => wx_at_3 m c t k q)
    (fun k => wh_at_0 m c t k q) (fun k => wh_at_1 m c t k q) (fun k => wh_at_2 m c t k q) (fun k => wh_at_3 m c t k q)
    (bias_at_0 m c t q) (bias_at_1 m c t q) (bias_at_2 m c t q) (bias_at_3 m c t q)

/-! ## From the tiles to the arrays -/

/-- What tile `t` writes back to the new hidden state is block `t` of the specification's array. -/
theorem flushed_hidArr (c : Dev nD) (t : Fin cfg0.N) :
    (dats m 0 c).flushed 6 t = ((cfg0.win 6).blk t).view.read (Elt Ideal) (hidArr m c) := by
  have e := idx_facts t
  show (cfg0.win 6).cut (grid0.coords t) ((dats m 0 c).after 6 t) = _
  rw [after_6]
  unfold hidOut
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay3 (F := Ideal) (iblk m c 0 t) (iblk m c 1 t) (iblk m c 2 t) (iblk m c 3 t) (iblk m c 4 t) (iblk m c 5 t) (ix2 p q) = hidArr m c (((cfg0.win 6).blk t).view.emb (ix2 p q))
  rw [hid_tile m c t p q]
  refine congrArg _ (funext fun a => Fin.ext ?_)
  match a with
  | ⟨0, _⟩ => show 256 * t.val + p.val = win0_6.index t (0 : Fin 2) * 256 + 1 * p.val; omega
  | ⟨1, _⟩ => show q.val = win0_6.index t (1 : Fin 2) * 1024 + 1 * q.val; omega

/-- What tile `t` writes back to the new cell state is block `t` of the specification's array. -/
theorem flushed_cellArr (c : Dev nD) (t : Fin cfg0.N) :
    (dats m 0 c).flushed 7 t = ((cfg0.win 7).blk t).view.read (Elt Ideal) (cellArr m c) := by
  have e := idx_facts t
  show (cfg0.win 7).cut (grid0.coords t) ((dats m 0 c).after 7 t) = _
  rw [after_7]
  unfold cellOut
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  show k0_pay2 (F := Ideal) (iblk m c 0 t) (iblk m c 1 t) (iblk m c 2 t) (iblk m c 3 t) (iblk m c 4 t) (iblk m c 5 t) (ix2 p q) = cellArr m c (((cfg0.win 7).blk t).view.emb (ix2 p q))
  rw [cell_tile m c t p q]
  refine congrArg _ (funext fun a => Fin.ext ?_)
  match a with
  | ⟨0, _⟩ => show 256 * t.val + p.val = win0_7.index t (0 : Fin 2) * 256 + 1 * p.val; omega
  | ⟨1, _⟩ => show q.val = win0_7.index t (1 : Fin 2) * 1024 + 1 * q.val; omega

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v18_0).slice (win0_6.rect t)).set ↔ _
  rw [View.set_slice_whole, Rect.mem_set_unit]
  exact Iff.rfl

/-- Row `r` lies in the block of tile `r / 256`. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have h16 : grid0.N = 16 := N_0
  let t : Fin cfg0.N := ⟨(i 0).val / 256, by show (i 0).val / 256 < grid0.N; omega⟩
  have e := idx_facts t
  have et : t.val = (i 0).val / 256 := rfl
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v18_1).slice (win0_7.rect t)).set ↔ _
  rw [View.set_slice_whole, Rect.mem_set_unit]
  exact Iff.rfl

/-- Row `r` lies in the block of tile `r / 256`. -/
theorem cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have h16 : grid0.N = 16 := N_0
  let t : Fin cfg0.N := ⟨(i 0).val / 256, by show (i 0).val / 256 < grid0.N; omega⟩
  have e := idx_facts t
  have et : t.val = (i 0).val / 256 := rfl
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The sixteen blocks tile each result array, so it ends holding the specification's array whole. -/
theorem final_hid (c : Dev nD) : (dats m 0 c).arrAt 6 cfg0.N = hidArr m c :=
  (dats m 0 c).arrAt_eq_of_cover 6 (hidArr m c) (fun t _ => flushed_hidArr m c t) cover6

theorem final_cell (c : Dev nD) : (dats m 0 c).arrAt 7 cfg0.N = cellArr m c :=
  (dats m 0 c).arrAt_eq_of_cover 7 (cellArr m c) (fun t _ => flushed_cellArr m c t) cover7

/-! ## The run, read -/

/-- Every weakly fair execution of the program at the extended reals terminates with the two result arrays at the
    specification's new hidden and new cell states of the launch contents, and the nineteen arguments unchanged. -/
theorem run : θ_run defs (onTc (τ := τ) (main (F := Ideal))) ⟨m, fun _ => 0, ρ⟩ fun r => ∀ c : Dev nD,
      r.2.mem ((c.tc : Thread nD τ).loc main_v18_0) = hidArr m c
      ∧ r.2.mem ((c.tc : Thread nD τ).loc main_v18_1) = cellArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_hid m c), ((h c).1 7).trans (final_cell m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.CellValue

end
-- ==== Proof.lean ====
/-
  An LSTM cell's single step, as one Pallas kernel against its jnp reference: both programs compute, for every batch
  row `r` and hidden unit `q`, the four gates' pre-activations `x[r,·]·Wx_g[q,·] + h[r,·]·Wh_g[q,·] + (bx_g[q] + bh_g[q])`,
  the new cell state `σ(f)·c + σ(i)·tanh(g)` and the new hidden state `σ(o)·tanh(new cell)` (`LstmSpec`).

  The kernel's program joins the four gates' transposed weight matrices along the columns on the host and runs the
  body over sixteen tiles of 256 batch rows; the reference joins the matrices along the rows, transposes the join, and
  computes everything on the host. On the extended reals the rounding of the kernel's operands to the narrow format is
  the identity, the kernel's matrix product into a zero accumulator and the host's contraction are the same finite
  sums, and the kernel's one-operation sigmoid is the reference's `1 / (1 + e^(-z))` by definition; the two programs
  add and multiply in the same order, so the two results agree entry by entry with no appeal to finiteness.

  The pieces: each kernel program's frame (`FrameKernel`, `FrameKernelIdeal`), the reference's run and its value read
  as the specification (`RefIsSpec`), the kernel's tile arithmetic read as the specification (`TileCell`,
  `TileToSpec`), the tiles assembled into the result arrays (`CellValue`), and the five claims (`Claims`). The
  idealization rewrote nothing, so the preservation claim is trivial.
-/
import proofs.«167211_j77988016160946_2_alg».proof.Defs
import proofs.«167211_j77988016160946_2_alg».proof.Proof.Gen.Kernel
import proofs.«167211_j77988016160946_2_alg».proof.Proof.Gen.KernelIdeal
import proofs.«167211_j77988016160946_2_alg».proof.Proof.Gen.ReferenceIdeal
import proofs.«167211_j77988016160946_2_alg».proof.Proof.Gen.Pre_finite_inputs
import proofs.«167211_j77988016160946_2_alg».proof.Proof.Claims
import proofs.«167211_j77988016160946_2_alg».proof.Proof.CellValue

noncomputable section

namespace Cert.Proof

open Idealize.ShloMosaic Idealize.SL.Sem Cert.Proof.CellClaims

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves,
  algebraic_of fun m ρ => Cert.KernelIdeal.CellValue.run m ρ⟩

end Cert.Proof

end
